-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x256x16 .f32
  ∧ IdealRules.sign_bit.Statement Cert.KernelIdeal.S512x256x16 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S512x256x16 : Shape := ⟨3, ![512, 256, 16]⟩
abbrev S512x256 : Shape := ⟨2, ![512, 256]⟩
abbrev S512x256x1 : Shape := ⟨3, ![512, 256, 1]⟩
abbrev S2048x2048 : Shape := ⟨2, ![2048, 2048]⟩
abbrev S1024x2048 : Shape := ⟨2, ![1024, 2048]⟩
abbrev S1024 : Shape := ⟨1, ![1024]⟩
abbrev S2048x1024 : Shape := ⟨2, ![2048, 1024]⟩
abbrev S1x1024 : Shape := ⟨2, ![1, 1024]⟩

abbrev nBuf : Space → Nat
  | .hbm => 6
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S2048x2048, .bf16⟩
  | .local _ .vmem, ⟨9, _⟩ => ⟨S2048x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024, .f32⟩
  | .local _ .vmem, ⟨13, _⟩ => ⟨S1024, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![4, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  shapeCasts_S512x4096_S512x256x16 : S512x4096.ShapeCasts S512x256x16
  reduces_S512x256x16_S512x256 : S512x256x16.Reduces [2] S512x256
  shapeCasts_S512x256_S512x256x1 : S512x256.ShapeCasts S512x256x1
  broadcasts_S512x256x1_S512x256x16 : S512x256x1.Broadcasts S512x256x16
  shapeCasts_S512x256x16_S512x4096 : S512x256x16.ShapeCasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  dot_S2048x2048_S1024x2048_S2048x1024_1_1_0_0_n_n_wf : DotDims.WF S2048x2048 S1024x2048 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x4096.size a
  hwx2_0 : ∀ i : grid2.Coords, EltTy.bits .bf16 = 32 ∨ (Rect.block (s := S8192x4096) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S4096x4096.size a
  hwx2_1 : ∀ i : grid2.Coords, EltTy.bits .bf16 = 32 ∨ (Rect.block (s := S4096x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S4096.size a
  hwx2_2 : ∀ i : grid2.Coords, EltTy.bits .f32 = 32 ∨ (Rect.block (s := S4096) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S8192x4096.size a
  hwx2_3 : ∀ i : grid2.Coords, EltTy.bits .f32 = 32 ∨ (Rect.block (s := S8192x4096) S2048x1024.size (cc2_transform_3 i) (hinb2_3 i)).WholeWords (EltTy.packing .f32)

variable [Facts₀]

def dot_S2048x2048_S1024x2048_S2048x1024_1_1_0_0_n_n : DotDims S2048x2048 S1024x2048 S2048x1024 where
  lhsContracting := [1]
  rhsContracting := [1]
  lhsNonContracting := [0]
  rhsNonContracting := [0]
  lhsBatch := []
  rhsBatch := []
  wf := dot_S2048x2048_S1024x2048_S2048x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S8192x256x16 : Shape := ⟨3, ![8192, 256, 16]⟩
abbrev S_ : Shape := ⟨0, ![]⟩
abbrev S8192x256 : Shape := ⟨2, ![8192, 256]⟩
abbrev S8192x256x1 : Shape := ⟨3, ![8192, 256, 1]⟩
abbrev S4096x256x16 : Shape := ⟨3, ![4096, 256, 16]⟩
abbrev S4096x256 : Shape := ⟨2, ![4096, 256]⟩
abbrev S4096x256x1 : Shape := ⟨3, ![4096, 256, 1]⟩
abbrev S1x4096 : Shape := ⟨2, ![1, 4096]⟩

abbrev nBuf : Space → Nat
  | .hbm => 113
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x256x16, .f32⟩
  | .hbm, ⟨4, _⟩ => ⟨S8192x256x16, .f32⟩
  | .hbm, ⟨5, _⟩ => ⟨S_, .f32⟩
  | .hbm, ⟨6, _⟩ => ⟨S8192x256, .f32⟩
  | .hbm, ⟨7, _⟩ => ⟨S8192x256x1, .f32⟩
  | .hbm, ⟨8, _⟩ => ⟨S_, .f32⟩
  | .hbm, ⟨9, _⟩ => ⟨S8192x256x1, .f32⟩
  | .hbm, ⟨10, _⟩ => ⟨S8192x256x1, .i1⟩
  | .hbm, ⟨11, _⟩ => ⟨S_, .f32⟩
  | .hbm, ⟨12, _⟩ => ⟨S8192x256x1, .f32⟩
  | .hbm, ⟨13, _⟩ => ⟨S8192x256x1, .f32⟩
  | .hbm, ⟨14, _⟩ => ⟨S_, .f32⟩
  | .hbm, ⟨15, _⟩ => ⟨S8192x256x1, .f32⟩
  | .hbm, ⟨16, _⟩ => ⟨S8192x256x1, .f32⟩
  | .hbm, ⟨17, _⟩ => ⟨S8192x256x16, .f32⟩
  | .hbm, ⟨18, _⟩ => ⟨S8192x256x16, .f32⟩
  | .hbm, ⟨19, _⟩ => ⟨S8192x256x16, .f32⟩
  | .hbm, ⟨20, _⟩ => ⟨S8192x256x16, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x256x16, .f32⟩
  | .hbm, ⟨25, _⟩ => ⟨S8192x256x16, .f32⟩
  | .hbm, ⟨26, _⟩ => ⟨S_, .f32⟩
  | .hbm, ⟨27, _⟩ => ⟨S8192x256x16, .f32⟩
  | .hbm, ⟨28, _⟩ => ⟨S8192x256x16, .f32⟩
  | .hbm, ⟨29, _⟩ => ⟨S_, .f32⟩
  | .hbm, ⟨30, _⟩ => ⟨S8192x256x16, .f32⟩
  | .hbm, ⟨31, _⟩ => ⟨S8192x256x16, .i1⟩
  | .hbm, ⟨32, _⟩ => ⟨S_, .f32⟩
  | .hbm, ⟨33, _⟩ => ⟨S8192x256x16, .f32⟩
  | .hbm, ⟨34, _⟩ => ⟨S8192x256x16, .f32⟩
  | .hbm, ⟨35, _⟩ => ⟨S8192x256x16, .f32⟩
  | .hbm, ⟨36, _⟩ => ⟨S_, .f32⟩
  | .hbm, ⟨37, _⟩ => ⟨S8192x256x16, .f32⟩
  | .hbm, ⟨38, _⟩ => ⟨S8192x256x16, .f32⟩
  | .hbm, ⟨39, _⟩ => ⟨S_, .f32⟩
  | .hbm, ⟨40, _⟩ => ⟨S8192x256x16, .f32⟩
  | .hbm, ⟨41, _⟩ => ⟨S8192x256x16, .i1⟩
  | .hbm, ⟨42, _⟩ => ⟨S8192x256x16, .f32⟩
  | .hbm, ⟨43, _⟩ => ⟨S_, .f32⟩
  | .hbm, ⟨44, _⟩ => ⟨S8192x256x16, .f32⟩
  | .hbm, ⟨45, _⟩ => ⟨S8192x256x16, .f32⟩
  | .hbm, ⟨46, _⟩ => ⟨S8192x256x16, .f32⟩
  | .hbm, ⟨47, _⟩ => ⟨S_, .f32⟩
  | .hbm, ⟨48, _⟩ => ⟨S8192x256x16, .f32⟩
  | .hbm, ⟨49, _⟩ => ⟨S8192x256x16, .f32⟩
  | .hbm, ⟨50, _⟩ => ⟨S8192x256x16, .f32⟩
  | .hbm, ⟨51, _⟩ => ⟨S8192x256x16, .f32⟩
  | .hbm, ⟨52, _⟩ => ⟨S8192x256x16, .f32⟩
  | .hbm, ⟨53, _⟩ => ⟨S8192x256x16, .f32⟩
  | .hbm, ⟨54, _⟩ => ⟨S8192x256x16, .f32⟩
  | .hbm, ⟨55, _⟩ => ⟨S8192x4096, .f32⟩
  | .hbm, ⟨56, _⟩ => ⟨S4096x256x16, .f32⟩
  | .hbm, ⟨57, _⟩ => ⟨S4096x256x16, .f32⟩
  | .hbm, ⟨58, _⟩ => ⟨S_, .f32⟩
  | .hbm, ⟨59, _⟩ => ⟨S4096x256, .f32⟩
  | .hbm, ⟨60, _⟩ => ⟨S4096x256x1, .f32⟩
  | .hbm, ⟨61, _⟩ => ⟨S_, .f32⟩
  | .hbm, ⟨62, _⟩ => ⟨S4096x256x1, .f32⟩
  | .hbm, ⟨63, _⟩ => ⟨S4096x256x1, .i1⟩
  | .hbm, ⟨64, _⟩ => ⟨S_, .f32⟩
  | .hbm, ⟨65, _⟩ => ⟨S4096x256x1, .f32⟩
  | .hbm, ⟨66, _⟩ => ⟨S4096x256x1, .f32⟩
  | .hbm, ⟨67, _⟩ => ⟨S_, .f32⟩
  | .hbm, ⟨68, _⟩ => ⟨S4096x256x1, .f32⟩
  | .hbm, ⟨69, _⟩ => ⟨S4096x256x1, .f32⟩
  | .hbm, ⟨70, _⟩ => ⟨S4096x256x16, .f32⟩
  | .hbm, ⟨71, _⟩ => ⟨S4096x256x16, .f32⟩
  | .hbm, ⟨72, _⟩ => ⟨S4096x256x16, .f32⟩
  | .hbm, ⟨73, _⟩ => ⟨S4096x256x16, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4096x256x16, .f32⟩
  | .hbm, ⟨78, _⟩ => ⟨S4096x256x16, .f32⟩
  | .hbm, ⟨79, _⟩ => ⟨S_, .f32⟩
  | .hbm, ⟨80, _⟩ => ⟨S4096x256x16, .f32⟩
  | .hbm, ⟨81, _⟩ => ⟨S4096x256x16, .f32⟩
  | .hbm, ⟨82, _⟩ => ⟨S_, .f32⟩
  | .hbm, ⟨83, _⟩ => ⟨S4096x256x16, .f32⟩
  | .hbm, ⟨84, _⟩ => ⟨S4096x256x16, .i1⟩
  | .hbm, ⟨85, _⟩ => ⟨S_, .f32⟩
  | .hbm, ⟨86, _⟩ => ⟨S4096x256x16, .f32⟩
  | .hbm, ⟨87, _⟩ => ⟨S4096x256x16, .f32⟩
  | .hbm, ⟨88, _⟩ => ⟨S4096x256x16, .f32⟩
  | .hbm, ⟨89, _⟩ => ⟨S_, .f32⟩
  | .hbm, ⟨90, _⟩ => ⟨S4096x256x16, .f32⟩
  | .hbm, ⟨91, _⟩ => ⟨S4096x256x16, .f32⟩
  | .hbm, ⟨92, _⟩ => ⟨S_, .f32⟩
  | .hbm, ⟨93, _⟩ => ⟨S4096x256x16, .f32⟩
  | .hbm, ⟨94, _⟩ => ⟨S4096x256x16, .i1⟩
  | .hbm, ⟨95, _⟩ => ⟨S4096x256x16, .f32⟩
  | .hbm, ⟨96, _⟩ => ⟨S_, .f32⟩
  | .hbm, ⟨97, _⟩ => ⟨S4096x256x16, .f32⟩
  | .hbm, ⟨98, _⟩ => ⟨S4096x256x16, .f32⟩
  | .hbm, ⟨99, _⟩ => ⟨S4096x256x16, .f32⟩
  | .hbm, ⟨100, _⟩ => ⟨S_, .f32⟩
  | .hbm, ⟨101, _⟩ => ⟨S4096x256x16, .f32⟩
  | .hbm, ⟨102, _⟩ => ⟨S4096x256x16, .f32⟩
  | .hbm, ⟨103, _⟩ => ⟨S4096x256x16, .f32⟩
  | .hbm, ⟨104, _⟩ => ⟨S4096x256x16, .f32⟩
  | .hbm, ⟨105, _⟩ => ⟨S4096x256x16, .f32⟩
  | .hbm, ⟨106, _⟩ => ⟨S4096x256x16, .f32⟩
  | .hbm, ⟨107, _⟩ => ⟨S4096x256x16, .f32⟩
  | .hbm, ⟨108, _⟩ => ⟨S4096x4096, .f32⟩
  | .hbm, ⟨109, _⟩ => ⟨S8192x4096, .f32⟩
  | .hbm, ⟨110, _⟩ => ⟨S1x4096, .f32⟩
  | .hbm, ⟨111, _⟩ => ⟨S8192x4096, .f32⟩
  | .hbm, ⟨112, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_cst_14 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_cst_16 : Ref sig .tc := ⟨.hbm, 75, rfl⟩
abbrev main_call8_v0 : Ref sig .tc := ⟨.hbm, 76, rfl⟩
abbrev main_call8_v1 : Ref sig .tc := ⟨.hbm, 77, rfl⟩
abbrev main_call8_v2 : Ref sig .tc := ⟨.hbm, 78, rfl⟩
abbrev main_call8_v3 : Ref sig .tc := ⟨.hbm, 79, rfl⟩
abbrev main_call8_v4 : Ref sig .tc := ⟨.hbm, 80, rfl⟩
abbrev main_v50 : Ref sig .tc := ⟨.hbm, 81, rfl⟩
abbrev main_cst_17 : Ref sig .tc := ⟨.hbm, 82, rfl⟩
abbrev main_v51 : Ref sig .tc := ⟨.hbm, 83, rfl⟩
abbrev main_v52 : Ref sig .tc := ⟨.hbm, 84, rfl⟩
abbrev main_cst_18 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_19 : Ref sig .tc := ⟨.hbm, 89, rfl⟩
abbrev main_v56 : Ref sig .tc := ⟨.hbm, 90, rfl⟩
abbrev main_v57 : Ref sig .tc := ⟨.hbm, 91, rfl⟩
abbrev main_cst_20 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_21 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_22 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]

class Facts₀ : Prop where
  shapeCasts_S8192x4096_S8192x256x16 : S8192x4096.ShapeCasts S8192x256x16
  reducesTo_S8192x256x16_S8192x256_d2 : S8192x256x16.ReducesTo [2] S8192x256
  h_S_ : 0 < S_.numel
  bcast_S8192x256_S8192x256x1_0_1 : S8192x256.BroadcastsInDim S8192x256x1 (![0, 1] : Fin 2 → Fin S8192x256x1.rank)
  bcast_S_S8192x256x1 : S_.BroadcastsInDim S8192x256x1 (![] : Fin 0 → Fin S8192x256x1.rank)
  bcast_S8192x256x1_S8192x256x16_0_1_2 : S8192x256x1.BroadcastsInDim S8192x256x16 (![0, 1, 2] : Fin 3 → Fin S8192x256x16.rank)
  bcast_S_S8192x256x16 : S_.BroadcastsInDim S8192x256x16 (![] : Fin 0 → Fin S8192x256x16.rank)
  shapeCasts_S8192x256x16_S8192x4096 : S8192x256x16.ShapeCasts S8192x4096
  shapeCasts_S4096x4096_S4096x256x16 : S4096x4096.ShapeCasts S4096x256x16
  reducesTo_S4096x256x16_S4096x256_d2 : S4096x256x16.ReducesTo [2] S4096x256
  bcast_S4096x256_S4096x256x1_0_1 : S4096x256.BroadcastsInDim S4096x256x1 (![0, 1] : Fin 2 → Fin S4096x256x1.rank)
  bcast_S_S4096x256x1 : S_.BroadcastsInDim S4096x256x1 (![] : Fin 0 → Fin S4096x256x1.rank)
  bcast_S4096x256x1_S4096x256x16_0_1_2 : S4096x256x1.BroadcastsInDim S4096x256x16 (![0, 1, 2] : Fin 3 → Fin S4096x256x16.rank)
  bcast_S_S4096x256x16 : S_.BroadcastsInDim S4096x256x16 (![] : Fin 0 → Fin S4096x256x16.rank)
  shapeCasts_S4096x256x16_S4096x4096 : S4096x256x16.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KQdq.lean ====
/- The class-A halves of the two quantize-dequantize regions (regions 0 and 1), generic in the float
   interpretation: per region, each window's block at a grid point, what the body leaves in the output
   window's staging buffer as a function of the input block, the body's triple, the pipeline's proof
   data and the body obligation at every point. -/
import proofs.«102121_j89773406421237_2_alg».proof.Proof.Gen.Kernel.Launch
import proofs.«102121_j89773406421237_2_alg».proof.Proof.Gen.Kernel.Skeleton
import proofs.«102121_j89773406421237_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # REGION 0: quantize-dequantize call 0 (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is `V`'s and whose body leaves the block in place: unfetched, the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 512 x 4096 block. -/
abbrev r0_0 : Rect S512x4096 := Rect.unit (s := S512x4096) ![0, 0] S512x4096.size inb_S512x4096_S512x4096_0_0

/-- The output window's staging buffer after the body, from the input window's block: its one store, of the
    dequantized block rounded to bf16, over the scale, the signed unit and the comparisons and candidates of the rounded magnitude of the loaded block. -/
def out0_1 (x0 : Vec F S512x4096 .f32) : Vec F S512x4096 .bf16 :=
  View.canon [⟨r0_0, k0_pay1 (k0_pay3 (View.ld x0 r0_0)) (k0_pay5 (View.ld x0 r0_0)) (k0_pay7 (View.ld x0 r0_0)) (k0_pay8 (View.ld x0 r0_0)) (k0_pay9 (View.ld x0 r0_0)) (k0_pay10 (View.ld x0 r0_0)) (k0_pay11 (View.ld x0 r0_0)) (k0_pay12 (F := F))⟩]

/-- The store covers the buffer. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The kernel body on whole staging memrefs, the input's at read contents `x0` and the output's at anything, runs to
    the continuation holding the input's as it was and the output's at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__qdq_kernel i arg1 harg1 arg2 harg2) K := by
  simp only [cc0__qdq_kernel_eq_skeleton]; unfold cc0__qdq_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: quantize-dequantize call 1 (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not, for any proof
    data whose array is `V`'s and whose body leaves the block in place: unfetched, the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole 512 x 4096 block. -/
abbrev r1_0 : Rect S512x4096 := Rect.unit (s := S512x4096) ![0, 0] S512x4096.size inb_S512x4096_S512x4096_0_0

/-- The output window's staging buffer after the body, from the input window's block: its one store, of the
    dequantized block rounded to bf16, over the scale, the signed unit and the comparisons and candidates of the rounded magnitude of the loaded block. -/
def out1_1 (x0 : Vec F S512x4096 .f32) : Vec F S512x4096 .bf16 :=
  View.canon [⟨r1_0, k1_pay1 (k1_pay3 (View.ld x0 r1_0)) (k1_pay5 (View.ld x0 r1_0)) (k1_pay7 (View.ld x0 r1_0)) (k1_pay8 (View.ld x0 r1_0)) (k1_pay9 (View.ld x0 r1_0)) (k1_pay10 (View.ld x0 r1_0)) (k1_pay11 (View.ld x0 r1_0)) (k1_pay12 (F := F))⟩]

/-- The store covers the buffer. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

set_option maxHeartbeats 1000000 in
/-- The kernel body on whole staging memrefs, the input's at read contents `x0` and the output's at anything, runs to
    the continuation holding the input's as it was and the output's at `out1_1 x0`. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__qdq_kernel i arg1 harg1 arg2 harg2) K := by
  simp only [cc1__qdq_kernel_eq_skeleton]; unfold cc1__qdq_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at
    point `t` the input's buffer at its block and the output's at `out1_1` of the input block; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KMatmulRuns.lean ====
/- Region 2 (the tiled matmul call, grid 4 x 4 x 2) of the frame, part one: what the two control cases of the
   body are stated over — each window's block at a point of the grid, read off the contents the region finds
   (a parameter `V`); the two branch conditions in closed form over the linear point number; where the output
   window is idle; the staging memrefs and the accumulator, a scoped buffer the body keeps from one point to the
   next — and, per case, the whole body run on any whole memrefs with the stores it leaves as pieces.

   The grid's last coordinate k is the point number mod 2.  At k = 0 the body zero-fills the accumulator, adds the
   product of the two input blocks, and stores nothing into the output block; at k = 1 it adds the product to
   what the point before left in the accumulator and stores accumulator + bias row into the output block. -/
import proofs.«102121_j89773406421237_2_alg».proof.Proof.Gen.Kernel.Launch
import proofs.«102121_j89773406421237_2_alg».proof.Proof.Gen.Kernel.Skeleton
import proofs.«102121_j89773406421237_2_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    point has the block index of the point before), for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    point has the block index of the point before), for any proof data whose array is `V`'s and whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    point has the block index of the point before), for any proof data whose array is `V`'s and whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's two branch conditions -/

/-- The first conditional's condition (k == 0), from the grid coordinates. -/
abbrev cond2_0 (i : grid2.Coords) : Prop := (Scalar.cmpi .ne (Scalar.extui (Scalar.cmpi .eq (BitVec.ofNat 32 (i 2).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- The second conditional's condition (k == 1), from the grid coordinates. -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the even points the output window is idle: the body stores nothing into it there, -/
theorem idleAt2_3_A : ∀ t : Fin cfg2.N, cond2_0 (grid2.coords t) → ¬cond2_1 (grid2.coords t) → cfg2.idle 3 (grid2.coords t) = true := by decide +kernel
/-- and the pipeline does not write its block back. -/
theorem noFlush2_3_A : ∀ t : Fin cfg2.N, cond2_0 (grid2.coords t) → ¬cond2_1 (grid2.coords t) → (cfg2.win 3).flush t = false := by decide +kernel
/-- At the odd points it is live: the body stores into it. -/
theorem liveAt2_3_B : ∀ t : Fin cfg2.N, ¬cond2_0 (grid2.coords t) → cond2_1 (grid2.coords t) → cfg2.idle 3 (grid2.coords t) = false := by decide +kernel

/-! ## The memrefs the body is called with -/

/-- One staging buffer of the output window, through which its contents are stated (the choice does not matter:
    the stores cover the block). -/
abbrev VO2_3 : View sig .tc .vmem S2048x1024 .f32 := (Memref.whole cc2_stg3_0 : Memref sig .tc .vmem S2048x1024 .f32).view
/-- Each window's current staging memref at point `t`, spelled as the pipeline passes it, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S2048x1024 .f32 := Memref.whole cc2_scratch0
/-- The accumulator as a view: what it holds is stated through it. -/
abbrev VS2_0 : View sig .tc .vmem S2048x1024 .f32 := scM2_0.view

/-- The core's scoped buffers that are no staging buffer of this region, the accumulator apart — the other two
    regions' staging buffers, each whole at some contents — beside a statement `P` about the accumulator. -/
def rest2 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ P)

/-- The region invariant of the plain class with the accumulator as a memref owned at some contents: what the
    body obligation hands the run before the first point and gets back after the last. -/
theorem PhiA2_eq (c : Dev nD) :
    (Pipeline.ΦA spec2 c : sProp 𝕄)
      = iprop(rest2 c (iprop(∃ d, owns (c : Thread nD τ) scM2_0 fullShare d)) ∗ (∃ r, prngReg c r)) := by
  unfold Pipeline.ΦA rest2; rw [scopedRest2_eq]; simp only [scM2_0, owns_whole]; try rfl

/-! ## The body on any whole memrefs, case by case: the pieces its stores leave, found by running it -/

-- (the run's proof term is large)
set_option maxHeartbeats 1000000 in
/-- CASE A (k = 0: the first conditional taken, the second not).  On whole memrefs — the three inputs' at their
    contents, the output's at contents `xi3` handed back untouched, the accumulator's at anything — the body runs to
    the continuation holding the inputs' and the output's as they were and the accumulator's with the pieces `LS0`
    written (last first): the zero block, then zero block + product. -/
noncomputable def kernelRun2_A (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_matmul_kernel i arg3 harg3 arg4 harg4 arg5 harg5 arg6 harg6 arg7 harg7) K } := by
  refine ⟨[], ?_, fun xi3 E K => ?run⟩
  case run =>
    simp only [cc2_matmul_kernel_eq_skeleton]; unfold cc2_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE B (k = 1: the first conditional not taken, the second taken).  On whole memrefs — the three inputs' at
    their contents, the output's at anything, the accumulator's at the contents `xs0` the point before left — the body
    runs to the continuation holding the inputs' as they were, the accumulator's with the pieces `LS0` written
    (`xs0` + product) and the output's with the pieces `L3` written (that sum + the bias row). -/
noncomputable def kernelRun2_B (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2_matmul_kernel i arg3 harg3 arg4 harg4 arg5 harg5 arg6 harg6 arg7 harg7) K } := by
  refine ⟨?_, ?_, fun E K => ?run⟩
  case run =>
    simp only [cc2_matmul_kernel_eq_skeleton]; unfold cc2_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KMatmul.lean ====
/- Region 2 (the tiled matmul call, grid 4 x 4 x 2) of the frame, part two: what the output window's staging
   buffer and the accumulator hold after the body at each point of the grid (`outsAt2`, by recursion on the point
   number: an even point starts the accumulator afresh, an odd point adds to what the point before left), the
   proof data of the region at the contents it finds (`dat2`), the body obligation at every point, the
   passage between the plain region invariant and the one that names the accumulator's contents, and the two
   cases' contents made explicit over the body's payloads (`outsAt2_even`, `outsAt2_odd`). -/
import proofs.«102121_j89773406421237_2_alg».proof.Proof.KMatmulRuns
import Idealize.ShloMosaic.Lib.Pipeline.Value

-- membership in a rectangle of these extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## What each case leaves, read back -/

/-- Case A stores nothing into the output window (idle at the even points and not written back there): no pieces —
    a placeholder nothing consults. -/
def out2_A_3 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) : Vec F S2048x1024 .f32 :=
  VO2_3.read (Elt F) (VO2_3.writes (Elt F) VO2_3.junk (kernelRun2_A c i arg3 harg3 arg4 harg4 arg5 harg5 arg6 harg6 arg7 harg7 hc0 hc1 x0 x1 x2).1)

/-- Case A's pieces for the accumulator cover it: whole-buffer stores. -/
theorem scover2_A_0 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) (y : S2048x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S2048x1024.size (by sl_kernel_rfl) y

/-- What case A leaves in the accumulator: its pieces read back. -/
def sout2_A_0 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) : Vec F S2048x1024 .f32 :=
  VS2_0.read (Elt F) (VS2_0.writes (Elt F) VS2_0.junk (kernelRun2_A c i arg3 harg3 arg4 harg4 arg5 harg5 arg6 harg6 arg7 harg7 hc0 hc1 x0 x1 x2).2.1)

/-- Case B's pieces for the output window cover its block: one whole-block store. -/
theorem cover2_B_3 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) (y : S2048x1024.Idx) :
    ∃ pc ∈ (kernelRun2_B c i arg3 harg3 arg4 harg4 arg5 harg5 arg6 harg6 arg7 harg7 hc0 hc1 x0 x1 x2 xs0).1, y ∈ pc.1.set :=
  View.cover_of_tiledL (kernelRun2_B c i arg3 harg3 arg4 harg4 arg5 harg5 arg6 harg6 arg7 harg7 hc0 hc1 x0 x1 x2 xs0).1 S2048x1024.size (by sl_kernel_rfl) y

/-- What case B leaves in the output window's staging buffer: its pieces read back. -/
def out2_B_3 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) : Vec F S2048x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case B's pieces for the accumulator cover it. -/
theorem scover2_B_0 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) (y : S2048x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S2048x1024.size (by sl_kernel_rfl) y

/-- What case B leaves in the accumulator: its pieces read back. -/
def sout2_B_0 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) : Vec F S2048x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

section Region
-- the TensorCore's buffer contents when the region is entered
variable (V : (c : Dev nD) → (b : Ref sig .tc) → Buf (Elt F) ((c : Thread nD τ).loc b))

/-! ## What the output window's buffer and the accumulator hold after each point -/

/-- The second condition fails at an even point. -/
theorem not_cond2_1_of_even (t : Fin cfg2.N) (h : t.val % 2 = 0) : ¬cond2_1 (grid2.coords t) :=
  fun h' => by have := (hcond2_1 t).mp h'; omega

/-- The first condition fails at an odd point. -/
theorem not_cond2_0_of_odd (t : Fin cfg2.N) (h : t.val % 2 = 1) : ¬cond2_0 (grid2.coords t) :=
  fun h' => by have := (hcond2_0 t).mp h'; omega

/-- (output window's staging buffer, accumulator) after the body at an even point `t`: case A on the point's
    memrefs and input blocks. -/
def caseA2 (c : Dev nD) (t : Fin cfg2.N) (h : t.val % 2 = 0) : Vec F S2048x1024 .f32 × Vec F S2048x1024 .f32 :=
  (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h) (not_cond2_1_of_even t h) (iblk2 V c 0 t) (iblk2 V c 1 t) (iblk2 V c 2 t),
   sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h) (not_cond2_1_of_even t h) (iblk2 V c 0 t) (iblk2 V c 1 t) (iblk2 V c 2 t))

/-- The same at an odd point `t`, the accumulator found at `xs`: case B. -/
def caseB2 (c : Dev nD) (t : Fin cfg2.N) (h : t.val % 2 = 1) (xs : Vec F S2048x1024 .f32) : Vec F S2048x1024 .f32 × Vec F S2048x1024 .f32 :=
  (out2_B_3 c (grid2.coords t) (ms2_0 t) (hs2_0 t) (ms2_1 t) (hs2_1 t) (ms2_2 t) (hs2_2 t) (ms2_3 t) (hs2_3 t) scM2_0 (Memref.isWhole_whole _) (not_cond2_0_of_odd t h) ((hcond2_1 t).mpr h) (iblk2 V c 0 t) (iblk2 V c 1 t) (iblk2 V c 2 t) xs,
   sout2_B_0 c (grid2.coords t) (ms2_0 t) (hs2_0 t) (ms2_1 t) (hs2_1 t) (ms2_2 t) (hs2_2 t) (ms2_3 t) (hs2_3 t) scM2_0 (Memref.isWhole_whole _) (not_cond2_0_of_odd t h) ((hcond2_1 t).mpr h) (iblk2 V c 0 t) (iblk2 V c 1 t) (iblk2 V c 2 t) xs)

/-- THE ACCUMULATION.  (Output window's staging buffer, accumulator) after the body at position `n`: an even
    position is case A; an odd one is case B over the accumulator the position before left (the accumulator is no
    window: nothing touches it between two points). -/
def outsAt2 (c : Dev nD) : (n : ℕ) → n < cfg2.N → Vec F S2048x1024 .f32 × Vec F S2048x1024 .f32
  | 0, hn => caseA2 V c ⟨0, hn⟩ (Nat.zero_mod 2)
  | n + 1, hn =>
    if h : (n + 1) % 2 = 0 then caseA2 V c ⟨n + 1, hn⟩ h
    else caseB2 V c ⟨n + 1, hn⟩ (Nat.mod_two_ne_zero.mp h) (outsAt2 c n (Nat.lt_of_succ_lt hn)).2

/-- `outsAt2` at an even point. -/
theorem outsAt2_A (c : Dev nD) (t : Fin cfg2.N) (h : t.val % 2 = 0) : outsAt2 V c t.val t.isLt = caseA2 V c t h := by
  obtain ⟨n, hn⟩ := t
  cases n with
  | zero => rfl
  | succ n => exact (dif_pos h).trans rfl

/-- `outsAt2` at an odd point: over what the point before left. -/
theorem outsAt2_B (c : Dev nD) (t : Fin cfg2.N) (h : t.val % 2 = 1) :
    outsAt2 V c t.val t.isLt = caseB2 V c t h (outsAt2 V c (t.val - 1) (Nat.lt_of_le_of_lt (Nat.sub_le _ _) t.isLt)).2 := by
  obtain ⟨n, hn⟩ := t
  cases n with
  | zero => exact absurd (show (0 : ℕ) % 2 = 1 from h) (by decide)
  | succ n => exact (dif_neg (fun h0 => by have h' : (n + 1) % 2 = 1 := h; omega)).trans rfl

/-- The region invariant before position `n`: before the first point the plain class's (every scoped buffer that
    is no staging buffer of the region at anything); afterwards the same with the accumulator at what the point
    before left in it. -/
def PhiS2 (c : Dev nD) : (n : ℕ) → n ≤ cfg2.N → sProp 𝕄
  | 0, _ => Pipeline.ΦA spec2 c
  | n + 1, hn => iprop(rest2 c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(rest2 c (owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(rest2 c (owns (c : Thread nD τ) scM2_0 fullShare ((outsAt2 V c (n - 1) (by omega)).2)) ∗ (∃ r, prngReg c r)) := by
  cases n with
  | zero => exact absurd rfl hz
  | succ n => rfl

/-! ## The region's proof data -/

/-- The proof data of the region on core `c`: the arrays as the region finds them (`V`); after the body at
    point `t` each input's buffer at its block and the output's at `outsAt2`'s first component; the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point.  The inputs' memrefs hold their blocks; the point number's parity says which case the
    point is in; the invariant hands the body the accumulator — at anything before the first point, at what the
    point before left afterwards — and takes it back at this point's contents (the case's pieces cover it); the
    other scoped buffers, the generator register and the core's debt pass through untouched.  At an even point the
    output window is idle and its buffer is handed back as found; at an odd point it is left at the case's pieces
    read back (they cover the block). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have hc0 : cond2_0 (grid2.coords t) := (hcond2_0 t).mpr h0
    have hc1 : ¬cond2_1 (grid2.coords t) := not_cond2_1_of_even t h0
    rw [Dat.leavesExact_idle (dat2 V c) 3 t (idleAt2_3_A t hc0 hc1) (noFlush2_3_A t hc0 hc1)]
    rw [outsAt2_A V c t h0]
    unfold caseA2 sout2_A_0; (try dsimp only)
    by_cases hz : t.val = 0
    · rw [PhiS2_castSucc V c t, PhiS2_zero V c _ _ hz, PhiA2_eq]; unfold rest2
      iintro ⟨⟨⟨R1, R2, R3, R4, R5, R6, R7, R8, HS0⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 R7 R8 HS0 Hg]
      · isplitl [R1 R2 R3 R4 R5 R6 R7 R8 HS0]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]; unfold rest2
      iintro ⟨⟨⟨R1, R2, R3, R4, R5, R6, R7, R8, HS0⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 R7 R8 HS0 Hg]
      · isplitl [R1 R2 R3 R4 R5 R6 R7 R8 HS0]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := Nat.mod_two_ne_zero.mp h0
    have hc0 : ¬cond2_0 (grid2.coords t) := not_cond2_0_of_odd t h1
    have hc1 : cond2_1 (grid2.coords t) := (hcond2_1 t).mpr h1
    rw [show (dat2 V c).leavesExact 3 t = owns (c : Thread nD τ) (ms2_3 t) fullShare ((dat2 V c).after 3 t) from by
      unfold Dat.leavesExact; rw [liveAt2_3_B t hc0 hc1], after2_3]
    rw [outsAt2_B V c t h1]
    unfold caseB2 out2_B_3 sout2_B_0; (try dsimp only)
    have hz : t.val ≠ 0 := fun e => by rw [e] at h1; exact absurd h1 (by decide)
    rw [PhiS2_castSucc V c t, PhiS2_pos V c _ _ hz]; unfold rest2
    iintro ⟨⟨⟨R1, R2, R3, R4, R5, R6, R7, R8, HS0⟩, Hg⟩, Ho, ⟨%d0, H0⟩, ⟨%d1, H1⟩, ⟨%d2, H2⟩, ⟨%d3, H3⟩⟩
    iapply ((kernelRun2_B c (grid2.coords t) _ _ _ _ _ _ _ _ _ _ hc0 hc1 (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [R1 R2 R3 R4 R5 R6 R7 R8 HS0 Hg]
    · isplitl [R1 R2 R3 R4 R5 R6 R7 R8 HS0]
      ·
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        unfold owns; iexists _; isplitr
        swap; · iexact HS0
        ipureintro; exact View.read_writes_of_cover _ _ _ _ _ (scover2_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the plain one back: the accumulator's named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold rest2
  iintro ⟨⟨R1, R2, R3, R4, R5, R6, R7, R8, HS0⟩, Hg⟩
  isplitl [R1 R2 R3 R4 R5 R6 R7 R8 HS0]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Region

/-! ## The two cases' contents, explicit over the payloads

Every load and store of the body goes through the whole-buffer rectangle at zero offsets, so a load reads the
buffer's contents, a load after a store reads the store's payload, and the last store's payload is what the buffer
ends holding. -/

/-- Zero offsets, spelt as the program prints them. -/
theorem zz2 : (![0, 0] : Fin 2 → ℕ) = fun _ => 0 := by funext a; fin_cases a <;> rfl
theorem zz1 : (![0] : Fin 1 → ℕ) = fun _ => 0 := by funext a; fin_cases a; rfl

/-- A load, through the whole-buffer rectangle, of a whole memref whose contents read `x`, reads `x`. -/
theorem readAt_unread_unit {S : Shape} {e : EltTy} (m : Memref sig .tc .vmem S e) (hm : m.IsWhole)
    {off : Fin S.rank → ℕ} (h : off = fun _ => 0) (inb : ∀ a, off a + S.size a ≤ S.size a) (x : S.Idx → Elt F e) :
    View.readAt (Elt F) m.view (Rect.unit off S.size inb).toLoadRect (hm.unread x) = x := by
  show View.ld (m.view.read (Elt F) (hm.unread x)) (Rect.unit off S.size inb) = x
  rw [hm.read_unread x]; exact View.ld_unit_zero h inb x

/-- Case A leaves in the accumulator: zero block + product of the two input blocks. -/
theorem sout2_A_0_eq (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) :
    sout2_A_0 c i arg3 harg3 arg4 harg4 arg5 harg5 arg6 harg6 arg7 harg7 hc0 hc1 x0 x1 x2 = k2_pay2 (k2_pay1 (F := F)) x0 x1 := by
  unfold sout2_A_0
  rw [View.read_writes_junk_eq_canon]
  unfold kernelRun2_A; dsimp only; sl_unfold_run_names
  rw [View.canon_cons_unit_zero zz2, View.readCov_unit_zero _ zz2, readAt_unread_unit _ _ zz2, readAt_unread_unit _ _ zz2]

/-- Case B leaves in the accumulator: what it found + product of the two input blocks. -/
theorem sout2_B_0_eq (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) :
    sout2_B_0 c i arg3 harg3 arg4 harg4 arg5 harg5 arg6 harg6 arg7 harg7 hc0 hc1 x0 x1 x2 xs0 = k2_pay2 xs0 x0 x1 := by
  unfold sout2_B_0
  rw [View.read_writes_junk_eq_canon]
  unfold kernelRun2_B; dsimp only; sl_unfold_run_names
  rw [View.canon_unit_zero zz2, readAt_unread_unit _ _ zz2, readAt_unread_unit _ _ zz2, readAt_unread_unit _ _ zz2]

/-- Case B leaves in the output window's staging buffer: that sum + the bias row. -/
theorem out2_B_3_eq (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) :
    out2_B_3 c i arg3 harg3 arg4 harg4 arg5 harg5 arg6 harg6 arg7 harg7 hc0 hc1 x0 x1 x2 xs0 = k2_pay3 (k2_pay2 xs0 x0 x1) x2 := by
  unfold out2_B_3
  rw [View.read_writes_junk_eq_canon]
  unfold kernelRun2_B; dsimp only; sl_unfold_run_names
  rw [View.canon_unit_zero zz2, View.readCov_unit_zero _ zz2, readAt_unread_unit _ _ zz2, readAt_unread_unit _ _ zz2, readAt_unread_unit _ _ zz2, readAt_unread_unit _ _ zz1]

section RegionContents
variable (V : (c : Dev nD) → (b : Ref sig .tc) → Buf (Elt F) ((c : Thread nD τ).loc b))

/-- After an even point the accumulator holds zero block + product of the point's two input blocks. -/
theorem outsAt2_even (c : Dev nD) (t : Fin cfg2.N) (h : t.val % 2 = 0) :
    (outsAt2 V c t.val t.isLt).2 = k2_pay2 (k2_pay1 (F := F)) (iblk2 V c 0 t) (iblk2 V c 1 t) := by
  rw [outsAt2_A V c t h]; unfold caseA2; dsimp only
  exact sout2_A_0_eq c _ _ _ _ _ _ _ _ _ _ _ _ _ _ _ _

/-- After an odd point the accumulator holds what the point before left + product of the point's two input blocks,
    and the output window's staging buffer that sum + the point's bias row. -/
theorem outsAt2_odd (c : Dev nD) (t : Fin cfg2.N) (h : t.val % 2 = 1) :
    outsAt2 V c t.val t.isLt =
      (k2_pay3 (k2_pay2 (outsAt2 V c (t.val - 1) (Nat.lt_of_le_of_lt (Nat.sub_le _ _) t.isLt)).2 (iblk2 V c 0 t) (iblk2 V c 1 t)) (iblk2 V c 2 t),
       k2_pay2 (outsAt2 V c (t.val - 1) (Nat.lt_of_le_of_lt (Nat.sub_le _ _) t.isLt)).2 (iblk2 V c 0 t) (iblk2 V c 1 t)) := by
  refine (outsAt2_B V c t h).trans ?_
  unfold caseB2
  rw [out2_B_3_eq, sout2_B_0_eq]

end RegionContents

end Cert.Kernel.Hand

end
-- ==== Proof.KRun.lean ====
/-
  The run of the whole program: its three kernel regions one after the other.

  The buffers' contents at each boundary are named by a fold from the launch memory: a region leaves every array of
  its windows at what its write-backs leave and every other buffer as it found it. Each region is entered from
  "every unscoped buffer at the boundary's contents, the generator register at some state, nothing owed" and left at
  the same at the next boundary; the third region's invariant starts and ends at the class's plain one, the
  accumulator's named contents being forgotten at its end. Read against a final state, the last boundary gives every
  unscoped buffer's final contents: the arguments as launched, and the result at what the third region wrote back.
-/
import proofs.«102121_j89773406421237_2_alg».proof.Proof.KQdq
import proofs.«102121_j89773406421237_2_alg».proof.Proof.KMatmul

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: the treated activations written, everything else as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region: the treated weights written. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the third region: the result written. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ### The arguments end as launched: a region reads an argument through an input window or bypasses it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat2 (V2 m ρ) c).arrAt_in 2 rfl _).trans (A_eq2 (V2 m ρ) c 2))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The result array at the end is what the third region's write-backs leave. -/
theorem W3_main_v2 (c : Dev nD) : W3 m ρ c (Proc.devRef .tc main_v2) = (dat2 (V2 m ρ) c).arrAt 3 cfg2.N :=
  W3_arr m ρ c 3

/-- The third region finds the treated activations at what the first region's write-backs left, -/
theorem V2_main_v0 (c : Dev nD) : V2 m ρ c main_v0 = (dat0 (V0 m ρ) c).arrAt 1 cfg0.N :=
  (W2_of_ne m ρ c main_v0 (by decide)).trans (W1_arr m ρ c 1)
/-- the treated weights at what the second's left, -/
theorem V2_main_v1 (c : Dev nD) : V2 m ρ c main_v1 = (dat1 (V1 m ρ) c).arrAt 1 cfg1.N :=
  W2_arr m ρ c 1
/-- and the bias as launched. -/
theorem V2_main_arg2 (c : Dev nD) : V2 m ρ c main_arg2 = m ((c : Thread nD τ).loc main_arg2) :=
  (W2_of_ne m ρ c main_arg2 (by decide)).trans ((W1_of_ne m ρ c main_arg2 (by decide)).trans rfl)
/-- The second region finds the weights as launched. -/
theorem V1_main_arg1 (c : Dev nD) : V1 m ρ c main_arg1 = m ((c : Thread nD τ).loc main_arg1) :=
  (W1_of_ne m ρ c main_arg1 (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: entered at `W2`, left at `W3`; its invariant starts from the class's plain one (`hin2`) and gives it
    back at the end (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest spec2 c) : sProp 𝕄) ⊢ Pipeline.ΦA spec2 c := by
      unfold Pipeline.ΦA
      iintro ⟨Hp, -, Hr⟩
      isplitl [Hr]; · iexact Hr
      iexact Hp
    exact h.trans (hin2 (V2 m ρ) c)
  hout c := by
    rw [Pipeline.ownSems0_none]
    have h : Pipeline.ΦA spec2 c ⊢ (iprop((∃ r, prngReg c r) ∗ BI.emp ∗ Pipeline.scopedRest spec2 c) : sProp 𝕄) := by
      unfold Pipeline.ΦA
      iintro ⟨Hr, Hp⟩
      isplitl [Hp]; · iexact Hp
      isplitr; · iempintro
      iexact Hr
    exact (hout2 (V2 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ), .region (reg2 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final state every unscoped buffer holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The same with the result array and the three arguments read off: the result at what the third region's write-backs
    leave, the arguments as launched. -/
theorem run_main : θ_run defs (onTc (τ := τ) (main (F := F))) ⟨m, fun _ => 0, ρ⟩ (fun r => ∀ c : Dev nD,
      r.2.mem ((c.tc : Thread nD τ).loc main_v2) = (dat2 (V2 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The frame: the program runs to the end, faults nowhere and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.Kernel.Hand

end
-- ==== Proof.KIQdq.lean ====
/- The class-A halves of the two quantize-dequantize regions (regions 0 and 1), generic in the float
   interpretation: per region, each window's block at a grid point, what the body leaves in the output
   window's staging buffer as a function of the input block, the body's triple, the pipeline's proof
   data and the body obligation at every point. -/
import proofs.«102121_j89773406421237_2_alg».proof.Proof.Gen.KernelIdeal.Launch
import proofs.«102121_j89773406421237_2_alg».proof.Proof.Gen.KernelIdeal.Skeleton
import proofs.«102121_j89773406421237_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # REGION 0: quantize-dequantize call 0 (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is `V`'s and whose body leaves the block in place: unfetched, the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 512 x 4096 block. -/
abbrev r0_0 : Rect S512x4096 := Rect.unit (s := S512x4096) ![0, 0] S512x4096.size inb_S512x4096_S512x4096_0_0

/-- The output window's staging buffer after the body, from the input window's block: its one store, of the
    dequantized block rounded to bf16, over the scale, the signed unit and the rounded magnitude of the loaded block. -/
def out0_1 (x0 : Vec F S512x4096 .f32) : Vec F S512x4096 .bf16 :=
  View.canon [⟨r0_0, k0_pay1 (k0_pay3 (View.ld x0 r0_0)) (k0_pay5 (View.ld x0 r0_0)) (k0_pay6 (View.ld x0 r0_0))⟩]

/-- The store covers the buffer. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The kernel body on whole staging memrefs, the input's at read contents `x0` and the output's at anything, runs to
    the continuation holding the input's as it was and the output's at `out0_1 x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__qdq_kernel i arg1 harg1 arg2 harg2) K := by
  simp only [cc0__qdq_kernel_eq_skeleton]; unfold cc0__qdq_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1: quantize-dequantize call 1 (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not, for any proof
    data whose array is `V`'s and whose body leaves the block in place: unfetched, the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole 512 x 4096 block. -/
abbrev r1_0 : Rect S512x4096 := Rect.unit (s := S512x4096) ![0, 0] S512x4096.size inb_S512x4096_S512x4096_0_0

/-- The output window's staging buffer after the body, from the input window's block: its one store, of the
    dequantized block rounded to bf16, over the scale, the signed unit and the rounded magnitude of the loaded block. -/
def out1_1 (x0 : Vec F S512x4096 .f32) : Vec F S512x4096 .bf16 :=
  View.canon [⟨r1_0, k1_pay1 (k1_pay3 (View.ld x0 r1_0)) (k1_pay5 (View.ld x0 r1_0)) (k1_pay6 (View.ld x0 r1_0))⟩]

/-- The store covers the buffer. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

set_option maxHeartbeats 1000000 in
/-- The kernel body on whole staging memrefs, the input's at read contents `x0` and the output's at anything, runs to
    the continuation holding the input's as it was and the output's at `out1_1 x0`. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__qdq_kernel i arg1 harg1 arg2 harg2) K := by
  simp only [cc1__qdq_kernel_eq_skeleton]; unfold cc1__qdq_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at
    point `t` the input's buffer at its block and the output's at `out1_1` of the input block; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIMatmulRuns.lean ====
/- Region 2 (the tiled matmul call, grid 4 x 4 x 2) of the frame, part one: what the two control cases of the
   body are stated over — each window's block at a point of the grid, read off the contents the region finds
   (a parameter `V`); the two branch conditions in closed form over the linear point number; where the output
   window is idle; the staging memrefs and the accumulator, a scoped buffer the body keeps from one point to the
   next — and, per case, the whole body run on any whole memrefs with the stores it leaves as pieces.

   The grid's last coordinate k is the point number mod 2.  At k = 0 the body zero-fills the accumulator, adds the
   product of the two input blocks, and stores nothing into the output block; at k = 1 it adds the product to
   what the point before left in the accumulator and stores accumulator + bias row into the output block. -/
import proofs.«102121_j89773406421237_2_alg».proof.Proof.Gen.KernelIdeal.Launch
import proofs.«102121_j89773406421237_2_alg».proof.Proof.Gen.KernelIdeal.Skeleton
import proofs.«102121_j89773406421237_2_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    point has the block index of the point before), for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    point has the block index of the point before), for any proof data whose array is `V`'s and whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    point has the block index of the point before), for any proof data whose array is `V`'s and whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's two branch conditions -/

/-- The first conditional's condition (k == 0), from the grid coordinates. -/
abbrev cond2_0 (i : grid2.Coords) : Prop := (Scalar.cmpi .ne (Scalar.extui (Scalar.cmpi .eq (BitVec.ofNat 32 (i 2).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- The second conditional's condition (k == 1), from the grid coordinates. -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the even points the output window is idle: the body stores nothing into it there, -/
theorem idleAt2_3_A : ∀ t : Fin cfg2.N, cond2_0 (grid2.coords t) → ¬cond2_1 (grid2.coords t) → cfg2.idle 3 (grid2.coords t) = true := by decide +kernel
/-- and the pipeline does not write its block back. -/
theorem noFlush2_3_A : ∀ t : Fin cfg2.N, cond2_0 (grid2.coords t) → ¬cond2_1 (grid2.coords t) → (cfg2.win 3).flush t = false := by decide +kernel
/-- At the odd points it is live: the body stores into it. -/
theorem liveAt2_3_B : ∀ t : Fin cfg2.N, ¬cond2_0 (grid2.coords t) → cond2_1 (grid2.coords t) → cfg2.idle 3 (grid2.coords t) = false := by decide +kernel

/-! ## The memrefs the body is called with -/

/-- One staging buffer of the output window, through which its contents are stated (the choice does not matter:
    the stores cover the block). -/
abbrev VO2_3 : View sig .tc .vmem S2048x1024 .f32 := (Memref.whole cc2_stg3_0 : Memref sig .tc .vmem S2048x1024 .f32).view
/-- Each window's current staging memref at point `t`, spelled as the pipeline passes it, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S2048x1024 .f32 := Memref.whole cc2_scratch0
/-- The accumulator as a view: what it holds is stated through it. -/
abbrev VS2_0 : View sig .tc .vmem S2048x1024 .f32 := scM2_0.view

/-- The core's scoped buffers that are no staging buffer of this region, the accumulator apart — the other two
    regions' staging buffers, each whole at some contents — beside a statement `P` about the accumulator. -/
def rest2 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ P)

/-- The region invariant of the plain class with the accumulator as a memref owned at some contents: what the
    body obligation hands the run before the first point and gets back after the last. -/
theorem PhiA2_eq (c : Dev nD) :
    (Pipeline.ΦA spec2 c : sProp 𝕄)
      = iprop(rest2 c (iprop(∃ d, owns (c : Thread nD τ) scM2_0 fullShare d)) ∗ (∃ r, prngReg c r)) := by
  unfold Pipeline.ΦA rest2; rw [scopedRest2_eq]; simp only [scM2_0, owns_whole]; try rfl

/-! ## The body on any whole memrefs, case by case: the pieces its stores leave, found by running it -/

-- (the run's proof term is large)
set_option maxHeartbeats 1000000 in
/-- CASE A (k = 0: the first conditional taken, the second not).  On whole memrefs — the three inputs' at their
    contents, the output's at contents `xi3` handed back untouched, the accumulator's at anything — the body runs to
    the continuation holding the inputs' and the output's as they were and the accumulator's with the pieces `LS0`
    written (last first): the zero block, then zero block + product. -/
noncomputable def kernelRun2_A (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_matmul_kernel i arg3 harg3 arg4 harg4 arg5 harg5 arg6 harg6 arg7 harg7) K } := by
  refine ⟨[], ?_, fun xi3 E K => ?run⟩
  case run =>
    simp only [cc2_matmul_kernel_eq_skeleton]; unfold cc2_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE B (k = 1: the first conditional not taken, the second taken).  On whole memrefs — the three inputs' at
    their contents, the output's at anything, the accumulator's at the contents `xs0` the point before left — the body
    runs to the continuation holding the inputs' as they were, the accumulator's with the pieces `LS0` written
    (`xs0` + product) and the output's with the pieces `L3` written (that sum + the bias row). -/
noncomputable def kernelRun2_B (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2_matmul_kernel i arg3 harg3 arg4 harg4 arg5 harg5 arg6 harg6 arg7 harg7) K } := by
  refine ⟨?_, ?_, fun E K => ?run⟩
  case run =>
    simp only [cc2_matmul_kernel_eq_skeleton]; unfold cc2_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KIMatmul.lean ====
/- Region 2 (the tiled matmul call, grid 4 x 4 x 2) of the frame, part two: what the output window's staging
   buffer and the accumulator hold after the body at each point of the grid (`outsAt2`, by recursion on the point
   number: an even point starts the accumulator afresh, an odd point adds to what the point before left), the
   proof data of the region at the contents it finds (`dat2`), the body obligation at every point, the
   passage between the plain region invariant and the one that names the accumulator's contents, and the two
   cases' contents made explicit over the body's payloads (`outsAt2_even`, `outsAt2_odd`). -/
import proofs.«102121_j89773406421237_2_alg».proof.Proof.KIMatmulRuns
import Idealize.ShloMosaic.Lib.Pipeline.Value

-- membership in a rectangle of these extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

/-- Case A stores nothing into the output window (idle at the even points and not written back there): no pieces —
    a placeholder nothing consults. -/
def out2_A_3 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) : Vec F S2048x1024 .f32 :=
  VO2_3.read (Elt F) (VO2_3.writes (Elt F) VO2_3.junk (kernelRun2_A c i arg3 harg3 arg4 harg4 arg5 harg5 arg6 harg6 arg7 harg7 hc0 hc1 x0 x1 x2).1)

/-- Case A's pieces for the accumulator cover it: whole-buffer stores. -/
theorem scover2_A_0 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) (y : S2048x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S2048x1024.size (by sl_kernel_rfl) y

/-- What case A leaves in the accumulator: its pieces read back. -/
def sout2_A_0 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) : Vec F S2048x1024 .f32 :=
  VS2_0.read (Elt F) (VS2_0.writes (Elt F) VS2_0.junk (kernelRun2_A c i arg3 harg3 arg4 harg4 arg5 harg5 arg6 harg6 arg7 harg7 hc0 hc1 x0 x1 x2).2.1)

/-- Case B's pieces for the output window cover its block: one whole-block store. -/
theorem cover2_B_3 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) (y : S2048x1024.Idx) :
    ∃ pc ∈ (kernelRun2_B c i arg3 harg3 arg4 harg4 arg5 harg5 arg6 harg6 arg7 harg7 hc0 hc1 x0 x1 x2 xs0).1, y ∈ pc.1.set :=
  View.cover_of_tiledL (kernelRun2_B c i arg3 harg3 arg4 harg4 arg5 harg5 arg6 harg6 arg7 harg7 hc0 hc1 x0 x1 x2 xs0).1 S2048x1024.size (by sl_kernel_rfl) y

/-- What case B leaves in the output window's staging buffer: its pieces read back. -/
def out2_B_3 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) : Vec F S2048x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case B's pieces for the accumulator cover it. -/
theorem scover2_B_0 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) (y : S2048x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S2048x1024.size (by sl_kernel_rfl) y

/-- What case B leaves in the accumulator: its pieces read back. -/
def sout2_B_0 (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) : Vec F S2048x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

section Region
-- the TensorCore's buffer contents when the region is entered
variable (V : (c : Dev nD) → (b : Ref sig .tc) → Buf (Elt F) ((c : Thread nD τ).loc b))

/-! ## What the output window's buffer and the accumulator hold after each point -/

/-- The second condition fails at an even point. -/
theorem not_cond2_1_of_even (t : Fin cfg2.N) (h : t.val % 2 = 0) : ¬cond2_1 (grid2.coords t) :=
  fun h' => by have := (hcond2_1 t).mp h'; omega

/-- The first condition fails at an odd point. -/
theorem not_cond2_0_of_odd (t : Fin cfg2.N) (h : t.val % 2 = 1) : ¬cond2_0 (grid2.coords t) :=
  fun h' => by have := (hcond2_0 t).mp h'; omega

/-- (output window's staging buffer, accumulator) after the body at an even point `t`: case A on the point's
    memrefs and input blocks. -/
def caseA2 (c : Dev nD) (t : Fin cfg2.N) (h : t.val % 2 = 0) : Vec F S2048x1024 .f32 × Vec F S2048x1024 .f32 :=
  (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h) (not_cond2_1_of_even t h) (iblk2 V c 0 t) (iblk2 V c 1 t) (iblk2 V c 2 t),
   sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h) (not_cond2_1_of_even t h) (iblk2 V c 0 t) (iblk2 V c 1 t) (iblk2 V c 2 t))

/-- The same at an odd point `t`, the accumulator found at `xs`: case B. -/
def caseB2 (c : Dev nD) (t : Fin cfg2.N) (h : t.val % 2 = 1) (xs : Vec F S2048x1024 .f32) : Vec F S2048x1024 .f32 × Vec F S2048x1024 .f32 :=
  (out2_B_3 c (grid2.coords t) (ms2_0 t) (hs2_0 t) (ms2_1 t) (hs2_1 t) (ms2_2 t) (hs2_2 t) (ms2_3 t) (hs2_3 t) scM2_0 (Memref.isWhole_whole _) (not_cond2_0_of_odd t h) ((hcond2_1 t).mpr h) (iblk2 V c 0 t) (iblk2 V c 1 t) (iblk2 V c 2 t) xs,
   sout2_B_0 c (grid2.coords t) (ms2_0 t) (hs2_0 t) (ms2_1 t) (hs2_1 t) (ms2_2 t) (hs2_2 t) (ms2_3 t) (hs2_3 t) scM2_0 (Memref.isWhole_whole _) (not_cond2_0_of_odd t h) ((hcond2_1 t).mpr h) (iblk2 V c 0 t) (iblk2 V c 1 t) (iblk2 V c 2 t) xs)

/-- THE ACCUMULATION.  (Output window's staging buffer, accumulator) after the body at position `n`: an even
    position is case A; an odd one is case B over the accumulator the position before left (the accumulator is no
    window: nothing touches it between two points). -/
def outsAt2 (c : Dev nD) : (n : ℕ) → n < cfg2.N → Vec F S2048x1024 .f32 × Vec F S2048x1024 .f32
  | 0, hn => caseA2 V c ⟨0, hn⟩ (Nat.zero_mod 2)
  | n + 1, hn =>
    if h : (n + 1) % 2 = 0 then caseA2 V c ⟨n + 1, hn⟩ h
    else caseB2 V c ⟨n + 1, hn⟩ (Nat.mod_two_ne_zero.mp h) (outsAt2 c n (Nat.lt_of_succ_lt hn)).2

/-- `outsAt2` at an even point. -/
theorem outsAt2_A (c : Dev nD) (t : Fin cfg2.N) (h : t.val % 2 = 0) : outsAt2 V c t.val t.isLt = caseA2 V c t h := by
  obtain ⟨n, hn⟩ := t
  cases n with
  | zero => rfl
  | succ n => exact (dif_pos h).trans rfl

/-- `outsAt2` at an odd point: over what the point before left. -/
theorem outsAt2_B (c : Dev nD) (t : Fin cfg2.N) (h : t.val % 2 = 1) :
    outsAt2 V c t.val t.isLt = caseB2 V c t h (outsAt2 V c (t.val - 1) (Nat.lt_of_le_of_lt (Nat.sub_le _ _) t.isLt)).2 := by
  obtain ⟨n, hn⟩ := t
  cases n with
  | zero => exact absurd (show (0 : ℕ) % 2 = 1 from h) (by decide)
  | succ n => exact (dif_neg (fun h0 => by have h' : (n + 1) % 2 = 1 := h; omega)).trans rfl

/-- The region invariant before position `n`: before the first point the plain class's (every scoped buffer that
    is no staging buffer of the region at anything); afterwards the same with the accumulator at what the point
    before left in it. -/
def PhiS2 (c : Dev nD) : (n : ℕ) → n ≤ cfg2.N → sProp 𝕄
  | 0, _ => Pipeline.ΦA spec2 c
  | n + 1, hn => iprop(rest2 c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(rest2 c (owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(rest2 c (owns (c : Thread nD τ) scM2_0 fullShare ((outsAt2 V c (n - 1) (by omega)).2)) ∗ (∃ r, prngReg c r)) := by
  cases n with
  | zero => exact absurd rfl hz
  | succ n => rfl

/-! ## The region's proof data -/

/-- The proof data of the region on core `c`: the arrays as the region finds them (`V`); after the body at
    point `t` each input's buffer at its block and the output's at `outsAt2`'s first component; the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point.  The inputs' memrefs hold their blocks; the point number's parity says which case the
    point is in; the invariant hands the body the accumulator — at anything before the first point, at what the
    point before left afterwards — and takes it back at this point's contents (the case's pieces cover it); the
    other scoped buffers, the generator register and the core's debt pass through untouched.  At an even point the
    output window is idle and its buffer is handed back as found; at an odd point it is left at the case's pieces
    read back (they cover the block). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have hc0 : cond2_0 (grid2.coords t) := (hcond2_0 t).mpr h0
    have hc1 : ¬cond2_1 (grid2.coords t) := not_cond2_1_of_even t h0
    rw [Dat.leavesExact_idle (dat2 V c) 3 t (idleAt2_3_A t hc0 hc1) (noFlush2_3_A t hc0 hc1)]
    rw [outsAt2_A V c t h0]
    unfold caseA2 sout2_A_0; (try dsimp only)
    by_cases hz : t.val = 0
    · rw [PhiS2_castSucc V c t, PhiS2_zero V c _ _ hz, PhiA2_eq]; unfold rest2
      iintro ⟨⟨⟨R1, R2, R3, R4, R5, R6, R7, R8, HS0⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 R7 R8 HS0 Hg]
      · isplitl [R1 R2 R3 R4 R5 R6 R7 R8 HS0]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]; unfold rest2
      iintro ⟨⟨⟨R1, R2, R3, R4, R5, R6, R7, R8, HS0⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 R7 R8 HS0 Hg]
      · isplitl [R1 R2 R3 R4 R5 R6 R7 R8 HS0]
        ·
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := Nat.mod_two_ne_zero.mp h0
    have hc0 : ¬cond2_0 (grid2.coords t) := not_cond2_0_of_odd t h1
    have hc1 : cond2_1 (grid2.coords t) := (hcond2_1 t).mpr h1
    rw [show (dat2 V c).leavesExact 3 t = owns (c : Thread nD τ) (ms2_3 t) fullShare ((dat2 V c).after 3 t) from by
      unfold Dat.leavesExact; rw [liveAt2_3_B t hc0 hc1], after2_3]
    rw [outsAt2_B V c t h1]
    unfold caseB2 out2_B_3 sout2_B_0; (try dsimp only)
    have hz : t.val ≠ 0 := fun e => by rw [e] at h1; exact absurd h1 (by decide)
    rw [PhiS2_castSucc V c t, PhiS2_pos V c _ _ hz]; unfold rest2
    iintro ⟨⟨⟨R1, R2, R3, R4, R5, R6, R7, R8, HS0⟩, Hg⟩, Ho, ⟨%d0, H0⟩, ⟨%d1, H1⟩, ⟨%d2, H2⟩, ⟨%d3, H3⟩⟩
    iapply ((kernelRun2_B c (grid2.coords t) _ _ _ _ _ _ _ _ _ _ hc0 hc1 (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [R1 R2 R3 R4 R5 R6 R7 R8 HS0 Hg]
    · isplitl [R1 R2 R3 R4 R5 R6 R7 R8 HS0]
      ·
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        unfold owns; iexists _; isplitr
        swap; · iexact HS0
        ipureintro; exact View.read_writes_of_cover _ _ _ _ _ (scover2_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the plain one back: the accumulator's named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold rest2
  iintro ⟨⟨R1, R2, R3, R4, R5, R6, R7, R8, HS0⟩, Hg⟩
  isplitl [R1 R2 R3 R4 R5 R6 R7 R8 HS0]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Region

/-! ## The two cases' contents, explicit over the payloads

Every load and store of the body goes through the whole-buffer rectangle at zero offsets, so a load reads the
buffer's contents, a load after a store reads the store's payload, and the last store's payload is what the buffer
ends holding. -/

/-- Zero offsets, spelt as the program prints them. -/
theorem zz2 : (![0, 0] : Fin 2 → ℕ) = fun _ => 0 := by funext a; fin_cases a <;> rfl
theorem zz1 : (![0] : Fin 1 → ℕ) = fun _ => 0 := by funext a; fin_cases a; rfl

/-- A load, through the whole-buffer rectangle, of a whole memref whose contents read `x`, reads `x`. -/
theorem readAt_unread_unit {S : Shape} {e : EltTy} (m : Memref sig .tc .vmem S e) (hm : m.IsWhole)
    {off : Fin S.rank → ℕ} (h : off = fun _ => 0) (inb : ∀ a, off a + S.size a ≤ S.size a) (x : S.Idx → Elt F e) :
    View.readAt (Elt F) m.view (Rect.unit off S.size inb).toLoadRect (hm.unread x) = x := by
  show View.ld (m.view.read (Elt F) (hm.unread x)) (Rect.unit off S.size inb) = x
  rw [hm.read_unread x]; exact View.ld_unit_zero h inb x

/-- Case A leaves in the accumulator: zero block + product of the two input blocks. -/
theorem sout2_A_0_eq (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1024 .f32) :
    sout2_A_0 c i arg3 harg3 arg4 harg4 arg5 harg5 arg6 harg6 arg7 harg7 hc0 hc1 x0 x1 x2 = k2_pay2 (k2_pay1 (F := F)) x0 x1 := by
  unfold sout2_A_0
  rw [View.read_writes_junk_eq_canon]
  unfold kernelRun2_A; dsimp only; sl_unfold_run_names
  rw [View.canon_cons_unit_zero zz2, View.readCov_unit_zero _ zz2, readAt_unread_unit _ _ zz2, readAt_unread_unit _ _ zz2]

/-- Case B leaves in the accumulator: what it found + product of the two input blocks. -/
theorem sout2_B_0_eq (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) :
    sout2_B_0 c i arg3 harg3 arg4 harg4 arg5 harg5 arg6 harg6 arg7 harg7 hc0 hc1 x0 x1 x2 xs0 = k2_pay2 xs0 x0 x1 := by
  unfold sout2_B_0
  rw [View.read_writes_junk_eq_canon]
  unfold kernelRun2_B; dsimp only; sl_unfold_run_names
  rw [View.canon_unit_zero zz2, readAt_unread_unit _ _ zz2, readAt_unread_unit _ _ zz2, readAt_unread_unit _ _ zz2]

/-- Case B leaves in the output window's staging buffer: that sum + the bias row. -/
theorem out2_B_3_eq (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1024 .f32) (xs0 : Vec F S2048x1024 .f32) :
    out2_B_3 c i arg3 harg3 arg4 harg4 arg5 harg5 arg6 harg6 arg7 harg7 hc0 hc1 x0 x1 x2 xs0 = k2_pay3 (k2_pay2 xs0 x0 x1) x2 := by
  unfold out2_B_3
  rw [View.read_writes_junk_eq_canon]
  unfold kernelRun2_B; dsimp only; sl_unfold_run_names
  rw [View.canon_unit_zero zz2, View.readCov_unit_zero _ zz2, readAt_unread_unit _ _ zz2, readAt_unread_unit _ _ zz2, readAt_unread_unit _ _ zz2, readAt_unread_unit _ _ zz1]

section RegionContents
variable (V : (c : Dev nD) → (b : Ref sig .tc) → Buf (Elt F) ((c : Thread nD τ).loc b))

/-- After an even point the accumulator holds zero block + product of the point's two input blocks. -/
theorem outsAt2_even (c : Dev nD) (t : Fin cfg2.N) (h : t.val % 2 = 0) :
    (outsAt2 V c t.val t.isLt).2 = k2_pay2 (k2_pay1 (F := F)) (iblk2 V c 0 t) (iblk2 V c 1 t) := by
  rw [outsAt2_A V c t h]; unfold caseA2; dsimp only
  exact sout2_A_0_eq c _ _ _ _ _ _ _ _ _ _ _ _ _ _ _ _

/-- After an odd point the accumulator holds what the point before left + product of the point's two input blocks,
    and the output window's staging buffer that sum + the point's bias row. -/
theorem outsAt2_odd (c : Dev nD) (t : Fin cfg2.N) (h : t.val % 2 = 1) :
    outsAt2 V c t.val t.isLt =
      (k2_pay3 (k2_pay2 (outsAt2 V c (t.val - 1) (Nat.lt_of_le_of_lt (Nat.sub_le _ _) t.isLt)).2 (iblk2 V c 0 t) (iblk2 V c 1 t)) (iblk2 V c 2 t),
       k2_pay2 (outsAt2 V c (t.val - 1) (Nat.lt_of_le_of_lt (Nat.sub_le _ _) t.isLt)).2 (iblk2 V c 0 t) (iblk2 V c 1 t)) := by
  refine (outsAt2_B V c t h).trans ?_
  unfold caseB2
  rw [out2_B_3_eq, sout2_B_0_eq]

end RegionContents

end Cert.KernelIdeal.Hand

end
-- ==== Proof.KIRun.lean ====
/-
  The run of the whole program: its three kernel regions one after the other.

  The buffers' contents at each boundary are named by a fold from the launch memory: a region leaves every array of
  its windows at what its write-backs leave and every other buffer as it found it. Each region is entered from
  "every unscoped buffer at the boundary's contents, the generator register at some state, nothing owed" and left at
  the same at the next boundary; the third region's invariant starts and ends at the class's plain one, the
  accumulator's named contents being forgotten at its end. Read against a final state, the last boundary gives every
  unscoped buffer's final contents: the arguments as launched, and the result at what the third region wrote back.
-/
import proofs.«102121_j89773406421237_2_alg».proof.Proof.KIQdq
import proofs.«102121_j89773406421237_2_alg».proof.Proof.KIMatmul

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: the treated activations written, everything else as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region: the treated weights written. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the third region: the result written. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ### The arguments end as launched: a region reads an argument through an input window or bypasses it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat2 (V2 m ρ) c).arrAt_in 2 rfl _).trans (A_eq2 (V2 m ρ) c 2))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The result array at the end is what the third region's write-backs leave. -/
theorem W3_main_v2 (c : Dev nD) : W3 m ρ c (Proc.devRef .tc main_v2) = (dat2 (V2 m ρ) c).arrAt 3 cfg2.N :=
  W3_arr m ρ c 3

/-- The third region finds the treated activations at what the first region's write-backs left, -/
theorem V2_main_v0 (c : Dev nD) : V2 m ρ c main_v0 = (dat0 (V0 m ρ) c).arrAt 1 cfg0.N :=
  (W2_of_ne m ρ c main_v0 (by decide)).trans (W1_arr m ρ c 1)
/-- the treated weights at what the second's left, -/
theorem V2_main_v1 (c : Dev nD) : V2 m ρ c main_v1 = (dat1 (V1 m ρ) c).arrAt 1 cfg1.N :=
  W2_arr m ρ c 1
/-- and the bias as launched. -/
theorem V2_main_arg2 (c : Dev nD) : V2 m ρ c main_arg2 = m ((c : Thread nD τ).loc main_arg2) :=
  (W2_of_ne m ρ c main_arg2 (by decide)).trans ((W1_of_ne m ρ c main_arg2 (by decide)).trans rfl)
/-- The second region finds the weights as launched. -/
theorem V1_main_arg1 (c : Dev nD) : V1 m ρ c main_arg1 = m ((c : Thread nD τ).loc main_arg1) :=
  (W1_of_ne m ρ c main_arg1 (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: entered at `W2`, left at `W3`; its invariant starts from the class's plain one (`hin2`) and gives it
    back at the end (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest spec2 c) : sProp 𝕄) ⊢ Pipeline.ΦA spec2 c := by
      unfold Pipeline.ΦA
      iintro ⟨Hp, -, Hr⟩
      isplitl [Hr]; · iexact Hr
      iexact Hp
    exact h.trans (hin2 (V2 m ρ) c)
  hout c := by
    rw [Pipeline.ownSems0_none]
    have h : Pipeline.ΦA spec2 c ⊢ (iprop((∃ r, prngReg c r) ∗ BI.emp ∗ Pipeline.scopedRest spec2 c) : sProp 𝕄) := by
      unfold Pipeline.ΦA
      iintro ⟨Hr, Hp⟩
      isplitl [Hp]; · iexact Hp
      isplitr; · iempintro
      iexact Hr
    exact (hout2 (V2 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ), .region (reg2 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final state every unscoped buffer holds the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The same with the result array and the three arguments read off: the result at what the third region's write-backs
    leave, the arguments as launched. -/
theorem run_main : θ_run defs (onTc (τ := τ) (main (F := F))) ⟨m, fun _ => 0, ρ⟩ (fun r => ∀ c : Dev nD,
      r.2.mem ((c.tc : Thread nD τ).loc main_v2) = (dat2 (V2 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The frame: the program runs to the end, faults nowhere and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.KernelIdeal.Hand

end
-- ==== Proof.Spec.lean ====
/-
  The result both programs compute, as one function of the argument arrays over the extended reals.

  A row of 4096 entries is cut into 256 blocks of 16. A block's scale is a sixth of its largest magnitude (one
  when that is not positive). An entry divided by its block's scale is moved to the nearest point of the grid
  ±{0, .5, 1, 1.5, 2, 3, 4, 6} (ties to even, magnitudes past six clipped) and multiplied by the scale again.
  The result is the product of the activations so treated with the transpose of the weights so treated, plus
  the bias along the columns.
-/
import Idealize.ShloMosaic.PureOps.Ideal
import Idealize.ShloMosaic.Lib.ValueIdx

noncomputable section

open scoped BigOperators

namespace Cert.Spec

open Idealize.ShloMosaic Idealize.ShloMosaic.ValueIdx

/-- The number a 32-bit pattern denotes. -/
abbrev lit (b : BitVec 32) : Ideal .f32 := FloatOps.ofBits .f32 b

/-- A block's scale from its largest magnitude `a`: `a / 6` where `a > 0`, otherwise `1`. -/
def scale (a : Ideal .f32) : Ideal .f32 :=
  Scalar.select (FloatOps.cmpf .ogt a (lit 0x00000000#32)) (FloatOps.divf a (lit 0x40C00000#32)) (lit 0x3F800000#32)

/-- The sign factor of `y`: `-1` or `1` by its sign where `|y| > 0`, and `y` itself otherwise. -/
def sgn (y : Ideal .f32) : Ideal .f32 :=
  Scalar.select (FloatOps.cmpf .ogt (FloatOps.absf y) (lit 0x00000000#32))
    (Scalar.select (FloatOps.cmpf .olt y (lit 0x00000000#32)) (lit 0xBF800000#32) (lit 0x3F800000#32)) y

/-- The magnitude of `y` clipped to `[0, 6]`. -/
def clip6 (y : Ideal .f32) : Ideal .f32 :=
  FloatOps.minimumf (lit 0x40C00000#32) (FloatOps.maximumf (lit 0x00000000#32) (FloatOps.absf y))

/-- A clipped magnitude moved to the grid: steps of a half up to two, of one up to four, of two beyond. -/
def grid (cl : Ideal .f32) : Ideal .f32 :=
  Scalar.select (FloatOps.cmpf .ole cl (lit 0x40000000#32))
    (FloatOps.mulf (FloatOps.roundeven (FloatOps.mulf cl (lit 0x40000000#32))) (lit 0x3F000000#32))
    (Scalar.select (FloatOps.cmpf .ole cl (lit 0x40800000#32)) (FloatOps.roundeven cl)
      (FloatOps.mulf (FloatOps.roundeven (FloatOps.mulf cl (lit 0x3F000000#32))) (lit 0x40000000#32)))

/-- One entry `x` of a block whose scale is `s`, quantized and dequantized. -/
def qd (x s : Ideal .f32) : Ideal .f32 :=
  FloatOps.mulf (FloatOps.mulf (sgn (FloatOps.divf x s)) (grid (clip6 (FloatOps.divf x s)))) s

/-- Entry `j` of block `b` of a row of 4096. -/
def col (b : Fin 256) (j : Fin 16) : Fin 4096 := ⟨b.val * 16 + j.val, by omega⟩

/-- The block of an entry of a row. -/
def blockOf (k : Fin 4096) : Fin 256 := ⟨k.val / 16, by omega⟩

/-- The largest magnitude of block `b` of a row. -/
def amax (row : Fin 4096 → Ideal .f32) (b : Fin 256) : Ideal .f32 :=
  (Finset.univ : Finset (Fin 16)).fold max (lit 0xFF800000#32) (fun j => FloatOps.absf (row (col b j)))

/-- An `[R, 4096]` array with every block of 16 along its rows quantized and dequantized. -/
def qdq {R : ℕ} (X : (⟨2, ![R, 4096]⟩ : Shape).Idx → Ideal .f32) (r : Fin R) (k : Fin 4096) : Ideal .f32 :=
  qd (X (ix2 r k)) (scale (amax (fun k' => X (ix2 r k')) (blockOf k)))

/-- The treated activations and weights as arrays (the narrow float format is the same extended real). -/
def qarr {R : ℕ} (X : (⟨2, ![R, 4096]⟩ : Shape).Idx → Ideal .f32) : (⟨2, ![R, 4096]⟩ : Shape).Idx → Ideal .bf16 :=
  fun i => qdq X (i 0) (i 1)

/-- Entry `(p, q)` of the result. -/
def entry (x : (⟨2, ![8192, 4096]⟩ : Shape).Idx → Ideal .f32) (w : (⟨2, ![4096, 4096]⟩ : Shape).Idx → Ideal .f32)
    (bias : (⟨1, ![4096]⟩ : Shape).Idx → Ideal .f32) (p : Fin 8192) (q : Fin 4096) : Ideal .f32 :=
  (∑ k : Fin 4096, qarr x (ix2 p k) * qarr w (ix2 q k)) + bias (ix1 q)

/-- The result array. -/
def G (x : (⟨2, ![8192, 4096]⟩ : Shape).Idx → Ideal .f32) (w : (⟨2, ![4096, 4096]⟩ : Shape).Idx → Ideal .f32)
    (bias : (⟨1, ![4096]⟩ : Shape).Idx → Ideal .f32) : (⟨2, ![8192, 4096]⟩ : Shape).Idx → Ideal .f32 :=
  fun i => entry x w bias (i 0) (i 1)

theorem G_apply (x w bias) (p : Fin 8192) (q : Fin 4096) : G x w bias (ix2 p q) = entry x w bias p q := rfl

theorem qarr_apply {R : ℕ} (X : (⟨2, ![R, 4096]⟩ : Shape).Idx → Ideal .f32) (r : Fin R) (k : Fin 4096) :
    qarr X (ix2 r k) = qdq X r k := rfl

end Cert.Spec

end
-- ==== Proof.SpecMM.lean ====
/-
  The product step of the specification by itself: the treated activations times the transpose of the treated
  weights, plus the bias along the columns, as a function of the three arrays the third region reads.
-/
import proofs.«102121_j89773406421237_2_alg».proof.Proof.Spec

noncomputable section

open scoped BigOperators

namespace Cert.Spec

open Idealize.ShloMosaic Idealize.ShloMosaic.ValueIdx

/-- Entry `(p, q)` of `a · bᵀ + bias`. -/
def mmEntry (a : (⟨2, ![8192, 4096]⟩ : Shape).Idx → Ideal .bf16) (b : (⟨2, ![4096, 4096]⟩ : Shape).Idx → Ideal .bf16)
    (bias : (⟨1, ![4096]⟩ : Shape).Idx → Ideal .f32) (p : Fin 8192) (q : Fin 4096) : Ideal .f32 :=
  (∑ k : Fin 4096, a (ix2 p k) * b (ix2 q k)) + bias (ix1 q)

/-- `a · bᵀ + bias` as an array. -/
def mm (a : (⟨2, ![8192, 4096]⟩ : Shape).Idx → Ideal .bf16) (b : (⟨2, ![4096, 4096]⟩ : Shape).Idx → Ideal .bf16)
    (bias : (⟨1, ![4096]⟩ : Shape).Idx → Ideal .f32) : (⟨2, ![8192, 4096]⟩ : Shape).Idx → Ideal .f32 :=
  fun i => mmEntry a b bias (i 0) (i 1)

theorem mm_apply (a b bias) (p : Fin 8192) (q : Fin 4096) : mm a b bias (ix2 p q) = mmEntry a b bias p q := rfl

/-- The result is the product step applied to the two treated arrays. -/
theorem G_eq_mm (x w bias) : G x w bias = mm (qarr x) (qarr w) bias := rfl

end Cert.Spec

end
-- ==== Proof.LibOuter.lean ====
/-
  Layout operations of a broadcast outer product, read at explicit coordinates.

  An `[a, b]` array given a trailing unit axis, `[a, b, 1]`, keeps entry `(i, j)` at `(i, j, 0)`: the two row-major
  positions are the same number. That column block broadcast to `[a, b, c]` repeats entry `(i, j)` along the last
  axis; a `[1, b, c]` array broadcast to `[a, b, c]` repeats its one slab along the first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.LibLastMax.lean ====
/-
  The largest entry along the last axis of a rank-3 array, read at coordinates.

  A kernel's reduction by maximum over axis 2 of an `[a, b, n]` array, started from the accumulator's value, is at
  the extended reals and at `(p, q)` the fold of `max` from that value over the entries `(p, q, k)`, `k < n`.
-/
import Idealize.ShloMosaic.PureOps.Ideal.Laws
import Idealize.ShloMosaic.Lib.ValueIdx

noncomputable section

namespace Cert.LibLastMax

open Idealize.ShloMosaic Idealize.ShloMosaic.ValueIdx

variable {a b n : ℕ}

/-- The maximum over the last axis of an `[a, b, n]` array at `(p, q)`: the fold of `max`, from the accumulator's
    value, over `k` of the array at `(p, q, k)`. -/
theorem multiReduction_max_last_apply {φ : FTy} (src : FVec Ideal ⟨3, ![a, b, n]⟩ φ) (acc : BitVec φ.bits)
    (h : (⟨3, ![a, b, n]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin n)).fold max (FloatOps.ofBits φ acc) (fun k => src (ix3 p q k)) := by
  rw [Ideal.multiReduction_maximumf_single]
  refine congrArg (fun f => (Finset.univ : Finset (Fin n)).fold max (FloatOps.ofBits φ acc) f) (funext fun k => ?_)
  refine congrArg src (funext fun c => Fin.ext ?_)
  match c with
  | ⟨0, _⟩ => rfl
  | ⟨1, _⟩ => rfl
  | ⟨2, _⟩ => rfl

end Cert.LibLastMax

end
-- ==== Proof.QdqPay0.lean ====
/-
  One block of 512 rows through the quantize-dequantize body, read at an entry.

  The body cuts each row of 4096 into 256 blocks of 16, takes each block's largest magnitude, divides the block by
  its scale, moves the quotient to the grid and multiplies by the scale again. Entry (r, k) of what it stores is the
  specification's `qdq` of the block at (r, k): it reads only row r of the block.
-/
import proofs.«102121_j89773406421237_2_alg».proof.Proof.Gen.KernelIdeal.Skeleton
import proofs.«102121_j89773406421237_2_alg».proof.Proof.Spec
import proofs.«102121_j89773406421237_2_alg».proof.Proof.LibOuter
import proofs.«102121_j89773406421237_2_alg».proof.Proof.LibLastMax
import Idealize.ShloMosaic.Lib.Pipeline.Value
import Idealize.ShloMosaic.Lib.ValueIdx
import Idealize.ShloMosaic.PureOps.Ideal.Laws

noncomputable section

namespace Cert.KernelIdeal.QdqVal0

open Cert.KernelIdeal Cert.KernelIdeal.Gen Idealize.ShloMosaic Idealize.ShloMosaic.ValueIdx Cert.Spec

/-! ## The pointwise steps at one index, over any operands -/

/-- The scale from a block maximum, at one index. -/
theorem scale_at (v4 : FVec Ideal S512x256x1 .f32) (i : S512x256x1.Idx) :
    select (cmpf .ogt v4 (broadcast S512x256x1 (Scalar.ofBits .f32 0x00000000#32 : Ideal .f32)))
        (divf v4 (broadcast S512x256x1 (Scalar.ofBits .f32 0x40C00000#32 : Ideal .f32)))
        (broadcast S512x256x1 (Scalar.ofBits .f32 0x3F800000#32 : Ideal .f32)) i
      = scale (v4 i) := rfl

/-- The sign factor, at one index. -/
theorem sgn_at (v12 : FVec Ideal S512x256x16 .f32) (i : S512x256x16.Idx) :
    select (cmpf .ogt (absf v12) (broadcast S512x256x16 (Scalar.ofBits .f32 0x00000000#32 : Ideal .f32)))
        (select (cmpf .olt v12 (constant S512x256x16 .f32 0x00000000#32)) (constant S512x256x16 .f32 0xBF800000#32) (constant S512x256x16 .f32 0x3F800000#32))
        v12 i
      = sgn (v12 i) := rfl

/-- The clipped magnitude, at one index. -/
theorem clip_at (v12 : FVec Ideal S512x256x16 .f32) (i : S512x256x16.Idx) :
    minimumf (broadcast S512x256x16 (Scalar.ofBits .f32 0x40C00000#32 : Ideal .f32))
        (maximumf (broadcast S512x256x16 (Scalar.ofBits .f32 0x00000000#32 : Ideal .f32)) (absf v12)) i
      = clip6 (v12 i) := rfl

/-- The grid step on a clipped magnitude, at one index. -/
theorem grid_at (v27 : FVec Ideal S512x256x16 .f32) (i : S512x256x16.Idx) :
    select (cmpf .ole v27 (broadcast S512x256x16 (Scalar.ofBits .f32 0x40000000#32 : Ideal .f32)))
        (mulf (roundeven (mulf v27 (broadcast S512x256x16 (Scalar.ofBits .f32 0x40000000#32 : Ideal .f32))))
          (broadcast S512x256x16 (Scalar.ofBits .f32 0x3F000000#32 : Ideal .f32)))
        (select (cmpf .ole v27 (broadcast S512x256x16 (Scalar.ofBits .f32 0x40800000#32 : Ideal .f32))) (roundeven v27)
          (mulf (roundeven (mulf v27 (broadcast S512x256x16 (Scalar.ofBits .f32 0x3F000000#32 : Ideal .f32))))
            (broadcast S512x256x16 (Scalar.ofBits .f32 0x40000000#32 : Ideal .f32)))) i
      = grid (v27 i) := rfl

/-- The narrowing of the float format keeps every entry. -/
theorem trunc_at (x : FVec Ideal S512x4096 .f32) (i : S512x4096.Idx) : truncf .bf16 x bitsLt_bf16_f32 i = x i := rfl

/-- A product of three arrays, at one index. -/
theorem mul3_at (x y z : FVec Ideal S512x256x16 .f32) (i : S512x256x16.Idx) :
    mulf (mulf x y) z i = FloatOps.mulf (FloatOps.mulf (x i) (y i)) (z i) := rfl

/-! ## The body's values at an entry of the block -/

variable (X : FVec Ideal S512x4096 .f32)

/-- Entry `(r, b, j)` of the block cut into 16s is entry `(r, 16 b + j)` of the row. -/
theorem pay2_apply (r : Fin 512) (b : Fin 256) (j : Fin 16) : k0_pay2 (F := Ideal) X (ix3 r b j) = X (ix2 r (col b j)) := by
  unfold k0_pay2
  exact shapeCast_apply X _ (ix3 r b j) (ix2 r (col b j)) (by
    rw [Shape.rowMajor_val_two, Shape.rowMajor_val_three]
    show r.val * 4096 + (b.val * 16 + j.val) = (r.val * 256 + b.val) * 16 + j.val
    omega)

/-- The largest magnitude of block `b` of row `r`. -/
theorem red_apply (r : Fin 512) (b : Fin 256) :
    multiReduction .maximumf [2] S512x256 (absf (k0_pay2 (F := Ideal) X)) 0xFF800000#32 reduces_S512x256x16_S512x256 (.inl rfl) rfl (ix2 r b)
      = amax (fun k' => X (ix2 r k')) b := by
  refine (Cert.LibLastMax.multiReduction_max_last_apply (absf (k0_pay2 (F := Ideal) X)) 0xFF800000#32 reduces_S512x256x16_S512x256 (.inl rfl) rfl r b).trans ?_
  unfold amax
  refine congrArg (fun f => (Finset.univ : Finset (Fin 16)).fold max (lit 0xFF800000#32) f) (funext fun j => ?_)
  exact congrArg FloatOps.absf (pay2_apply X r b j)

/-- The scale of block `b` of row `r`. -/
theorem pay3_apply (r : Fin 512) (b : Fin 256) (u : Fin 1) :
    k0_pay3 (F := Ideal) X (ix3 r b u) = scale (amax (fun k' => X (ix2 r k')) b) :=
  (scale_at (shapeCast S512x256x1 (multiReduction .maximumf [2] S512x256 (absf (k0_pay2 (F := Ideal) X)) 0xFF800000#32 reduces_S512x256x16_S512x256 (.inl rfl) rfl) shapeCasts_S512x256_S512x256x1) (ix3 r b u)).trans
    (congrArg scale ((shapeCast_ab_ab1_apply _ _ r b u).trans (red_apply X r b)))

/-- A quotient of two arrays, at one index. -/
theorem div_at (x y : FVec Ideal S512x256x16 .f32) (i : S512x256x16.Idx) : divf x y i = FloatOps.divf (x i) (y i) := rfl

/-- The entry divided by its block's scale. -/
theorem pay4_apply (r : Fin 512) (b : Fin 256) (j : Fin 16) :
    k0_pay4 (F := Ideal) X (ix3 r b j) = FloatOps.divf (X (ix2 r (col b j))) (scale (amax (fun k' => X (ix2 r k')) b)) :=
  (div_at (k0_pay2 (F := Ideal) X) (broadcastTo S512x256x16 (k0_pay3 (F := Ideal) X) broadcasts_S512x256x1_S512x256x16) (ix3 r b j)).trans
    (by rw [pay2_apply, broadcastTo_ab1_abc_apply, pay3_apply])

/-- Its sign factor. -/
theorem pay5_apply (r : Fin 512) (b : Fin 256) (j : Fin 16) :
    k0_pay5 (F := Ideal) X (ix3 r b j) = sgn (FloatOps.divf (X (ix2 r (col b j))) (scale (amax (fun k' => X (ix2 r k')) b))) :=
  (sgn_at (k0_pay4 (F := Ideal) X) (ix3 r b j)).trans (congrArg sgn (pay4_apply X r b j))

/-- Its magnitude on the grid. -/
theorem pay6_apply (r : Fin 512) (b : Fin 256) (j : Fin 16) :
    k0_pay6 (F := Ideal) X (ix3 r b j) = grid (clip6 (FloatOps.divf (X (ix2 r (col b j))) (scale (amax (fun k' => X (ix2 r k')) b)))) :=
  (grid_at (minimumf (broadcast S512x256x16 (Scalar.ofBits .f32 0x40C00000#32 : Ideal .f32))
        (maximumf (broadcast S512x256x16 (Scalar.ofBits .f32 0x00000000#32 : Ideal .f32)) (absf (k0_pay4 (F := Ideal) X)))) (ix3 r b j)).trans
    (congrArg grid ((clip_at (k0_pay4 (F := Ideal) X) (ix3 r b j)).trans (congrArg clip6 (pay4_apply X r b j))))

/-- What is stored, at an entry, over any three operands: the product of the sign factor, the grid magnitude and the
    block's scale at the entry's block. -/
theorem store_at (v10 : FVec Ideal S512x256x1 .f32) (v22 v44 : FVec Ideal S512x256x16 .f32) (r : Fin 512) (b : Fin 256) (j : Fin 16) :
    k0_pay1 (F := Ideal) v10 v22 v44 (ix2 r (col b j))
      = FloatOps.mulf (FloatOps.mulf (v22 (ix3 r b j)) (v44 (ix3 r b j))) (v10 (ix3 r b (0 : Fin 1))) := by
  refine (trunc_at (shapeCast S512x4096 (mulf (mulf v22 v44) (broadcastTo S512x256x16 v10 broadcasts_S512x256x1_S512x256x16)) shapeCasts_S512x256x16_S512x4096) (ix2 r (col b j))).trans ?_
  rw [shapeCast_apply _ shapeCasts_S512x256x16_S512x4096 (ix2 r (col b j)) (ix3 r b j) (by
    rw [Shape.rowMajor_val_two, Shape.rowMajor_val_three]
    show (r.val * 256 + b.val) * 16 + j.val = r.val * 4096 + (b.val * 16 + j.val)
    omega)]
  refine (mul3_at v22 v44 (broadcastTo S512x256x16 v10 broadcasts_S512x256x1_S512x256x16) (ix3 r b j)).trans ?_
  rw [broadcastTo_ab1_abc_apply]

/-- Entry `(r, k)` of the stored block. -/
theorem pay1_apply (r : Fin 512) (k : Fin 4096) :
    k0_pay1 (F := Ideal) (k0_pay3 (F := Ideal) X) (k0_pay5 (F := Ideal) X) (k0_pay6 (F := Ideal) X) (ix2 r k) = qdq X r k := by
  have hk : k = col (blockOf k) ⟨k.val % 16, Nat.mod_lt _ (by decide)⟩ := Fin.ext (by
    show k.val = k.val / 16 * 16 + k.val % 16
    omega)
  have h := store_at (k0_pay3 (F := Ideal) X) (k0_pay5 (F := Ideal) X) (k0_pay6 (F := Ideal) X) r (blockOf k) ⟨k.val % 16, Nat.mod_lt _ (by decide)⟩
  rw [pay5_apply, pay6_apply, pay3_apply, ← hk] at h
  exact h

end Cert.KernelIdeal.QdqVal0

end
-- ==== Proof.QdqPay1.lean ====
/-
  One block of 512 rows through the quantize-dequantize body, read at an entry.

  The body cuts each row of 4096 into 256 blocks of 16, takes each block's largest magnitude, divides the block by
  its scale, moves the quotient to the grid and multiplies by the scale again. Entry (r, k) of what it stores is the
  specification's `qdq` of the block at (r, k): it reads only row r of the block.
-/
import proofs.«102121_j89773406421237_2_alg».proof.Proof.Gen.KernelIdeal.Skeleton
import proofs.«102121_j89773406421237_2_alg».proof.Proof.Spec
import proofs.«102121_j89773406421237_2_alg».proof.Proof.LibOuter
import proofs.«102121_j89773406421237_2_alg».proof.Proof.LibLastMax
import Idealize.ShloMosaic.Lib.Pipeline.Value
import Idealize.ShloMosaic.Lib.ValueIdx
import Idealize.ShloMosaic.PureOps.Ideal.Laws

noncomputable section

namespace Cert.KernelIdeal.QdqVal1

open Cert.KernelIdeal Cert.KernelIdeal.Gen Idealize.ShloMosaic Idealize.ShloMosaic.ValueIdx Cert.Spec

/-! ## The pointwise steps at one index, over any operands -/

/-- The scale from a block maximum, at one index. -/
theorem scale_at (v4 : FVec Ideal S512x256x1 .f32) (i : S512x256x1.Idx) :
    select (cmpf .ogt v4 (broadcast S512x256x1 (Scalar.ofBits .f32 0x00000000#32 : Ideal .f32)))
        (divf v4 (broadcast S512x256x1 (Scalar.ofBits .f32 0x40C00000#32 : Ideal .f32)))
        (broadcast S512x256x1 (Scalar.ofBits .f32 0x3F800000#32 : Ideal .f32)) i
      = scale (v4 i) := rfl

/-- The sign factor, at one index. -/
theorem sgn_at (v12 : FVec Ideal S512x256x16 .f32) (i : S512x256x16.Idx) :
    select (cmpf .ogt (absf v12) (broadcast S512x256x16 (Scalar.ofBits .f32 0x00000000#32 : Ideal .f32)))
        (select (cmpf .olt v12 (constant S512x256x16 .f32 0x00000000#32)) (constant S512x256x16 .f32 0xBF800000#32) (constant S512x256x16 .f32 0x3F800000#32))
        v12 i
      = sgn (v12 i) := rfl

/-- The clipped magnitude, at one index. -/
theorem clip_at (v12 : FVec Ideal S512x256x16 .f32) (i : S512x256x16.Idx) :
    minimumf (broadcast S512x256x16 (Scalar.ofBits .f32 0x40C00000#32 : Ideal .f32))
        (maximumf (broadcast S512x256x16 (Scalar.ofBits .f32 0x00000000#32 : Ideal .f32)) (absf v12)) i
      = clip6 (v12 i) := rfl

/-- The grid step on a clipped magnitude, at one index. -/
theorem grid_at (v27 : FVec Ideal S512x256x16 .f32) (i : S512x256x16.Idx) :
    select (cmpf .ole v27 (broadcast S512x256x16 (Scalar.ofBits .f32 0x40000000#32 : Ideal .f32)))
        (mulf (roundeven (mulf v27 (broadcast S512x256x16 (Scalar.ofBits .f32 0x40000000#32 : Ideal .f32))))
          (broadcast S512x256x16 (Scalar.ofBits .f32 0x3F000000#32 : Ideal .f32)))
        (select (cmpf .ole v27 (broadcast S512x256x16 (Scalar.ofBits .f32 0x40800000#32 : Ideal .f32))) (roundeven v27)
          (mulf (roundeven (mulf v27 (broadcast S512x256x16 (Scalar.ofBits .f32 0x3F000000#32 : Ideal .f32))))
            (broadcast S512x256x16 (Scalar.ofBits .f32 0x40000000#32 : Ideal .f32)))) i
      = grid (v27 i) := rfl

/-- The narrowing of the float format keeps every entry. -/
theorem trunc_at (x : FVec Ideal S512x4096 .f32) (i : S512x4096.Idx) : truncf .bf16 x bitsLt_bf16_f32 i = x i := rfl

/-- A product of three arrays, at one index. -/
theorem mul3_at (x y z : FVec Ideal S512x256x16 .f32) (i : S512x256x16.Idx) :
    mulf (mulf x y) z i = FloatOps.mulf (FloatOps.mulf (x i) (y i)) (z i) := rfl

/-! ## The body's values at an entry of the block -/

variable (X : FVec Ideal S512x4096 .f32)

/-- Entry `(r, b, j)` of the block cut into 16s is entry `(r, 16 b + j)` of the row. -/
theorem pay2_apply (r : Fin 512) (b : Fin 256) (j : Fin 16) : k1_pay2 (F := Ideal) X (ix3 r b j) = X (ix2 r (col b j)) := by
  unfold k1_pay2
  exact shapeCast_apply X _ (ix3 r b j) (ix2 r (col b j)) (by
    rw [Shape.rowMajor_val_two, Shape.rowMajor_val_three]
    show r.val * 4096 + (b.val * 16 + j.val) = (r.val * 256 + b.val) * 16 + j.val
    omega)

/-- The largest magnitude of block `b` of row `r`. -/
theorem red_apply (r : Fin 512) (b : Fin 256) :
    multiReduction .maximumf [2] S512x256 (absf (k1_pay2 (F := Ideal) X)) 0xFF800000#32 reduces_S512x256x16_S512x256 (.inl rfl) rfl (ix2 r b)
      = amax (fun k' => X (ix2 r k')) b := by
  refine (Cert.LibLastMax.multiReduction_max_last_apply (absf (k1_pay2 (F := Ideal) X)) 0xFF800000#32 reduces_S512x256x16_S512x256 (.inl rfl) rfl r b).trans ?_
  unfold amax
  refine congrArg (fun f => (Finset.univ : Finset (Fin 16)).fold max (lit 0xFF800000#32) f) (funext fun j => ?_)
  exact congrArg FloatOps.absf (pay2_apply X r b j)

/-- The scale of block `b` of row `r`. -/
theorem pay3_apply (r : Fin 512) (b : Fin 256) (u : Fin 1) :
    k1_pay3 (F := Ideal) X (ix3 r b u) = scale (amax (fun k' => X (ix2 r k')) b) :=
  (scale_at (shapeCast S512x256x1 (multiReduction .maximumf [2] S512x256 (absf (k1_pay2 (F := Ideal) X)) 0xFF800000#32 reduces_S512x256x16_S512x256 (.inl rfl) rfl) shapeCasts_S512x256_S512x256x1) (ix3 r b u)).trans
    (congrArg scale ((shapeCast_ab_ab1_apply _ _ r b u).trans (red_apply X r b)))

/-- A quotient of two arrays, at one index. -/
theorem div_at (x y : FVec Ideal S512x256x16 .f32) (i : S512x256x16.Idx) : divf x y i = FloatOps.divf (x i) (y i) := rfl

/-- The entry divided by its block's scale. -/
theorem pay4_apply (r : Fin 512) (b : Fin 256) (j : Fin 16) :
    k1_pay4 (F := Ideal) X (ix3 r b j) = FloatOps.divf (X (ix2 r (col b j))) (scale (amax (fun k' => X (ix2 r k')) b)) :=
  (div_at (k1_pay2 (F := Ideal) X) (broadcastTo S512x256x16 (k1_pay3 (F := Ideal) X) broadcasts_S512x256x1_S512x256x16) (ix3 r b j)).trans
    (by rw [pay2_apply, broadcastTo_ab1_abc_apply, pay3_apply])

/-- Its sign factor. -/
theorem pay5_apply (r : Fin 512) (b : Fin 256) (j : Fin 16) :
    k1_pay5 (F := Ideal) X (ix3 r b j) = sgn (FloatOps.divf (X (ix2 r (col b j))) (scale (amax (fun k' => X (ix2 r k')) b))) :=
  (sgn_at (k1_pay4 (F := Ideal) X) (ix3 r b j)).trans (congrArg sgn (pay4_apply X r b j))

/-- Its magnitude on the grid. -/
theorem pay6_apply (r : Fin 512) (b : Fin 256) (j : Fin 16) :
    k1_pay6 (F := Ideal) X (ix3 r b j) = grid (clip6 (FloatOps.divf (X (ix2 r (col b j))) (scale (amax (fun k' => X (ix2 r k')) b)))) :=
  (grid_at (minimumf (broadcast S512x256x16 (Scalar.ofBits .f32 0x40C00000#32 : Ideal .f32))
        (maximumf (broadcast S512x256x16 (Scalar.ofBits .f32 0x00000000#32 : Ideal .f32)) (absf (k1_pay4 (F := Ideal) X)))) (ix3 r b j)).trans
    (congrArg grid ((clip_at (k1_pay4 (F := Ideal) X) (ix3 r b j)).trans (congrArg clip6 (pay4_apply X r b j))))

/-- What is stored, at an entry, over any three operands: the product of the sign factor, the grid magnitude and the
    block's scale at the entry's block. -/
theorem store_at (v10 : FVec Ideal S512x256x1 .f32) (v22 v44 : FVec Ideal S512x256x16 .f32) (r : Fin 512) (b : Fin 256) (j : Fin 16) :
    k1_pay1 (F := Ideal) v10 v22 v44 (ix2 r (col b j))
      = FloatOps.mulf (FloatOps.mulf (v22 (ix3 r b j)) (v44 (ix3 r b j))) (v10 (ix3 r b (0 : Fin 1))) := by
  refine (trunc_at (shapeCast S512x4096 (mulf (mulf v22 v44) (broadcastTo S512x256x16 v10 broadcasts_S512x256x1_S512x256x16)) shapeCasts_S512x256x16_S512x4096) (ix2 r (col b j))).trans ?_
  rw [shapeCast_apply _ shapeCasts_S512x256x16_S512x4096 (ix2 r (col b j)) (ix3 r b j) (by
    rw [Shape.rowMajor_val_two, Shape.rowMajor_val_three]
    show (r.val * 256 + b.val) * 16 + j.val = r.val * 4096 + (b.val * 16 + j.val)
    omega)]
  refine (mul3_at v22 v44 (broadcastTo S512x256x16 v10 broadcasts_S512x256x1_S512x256x16) (ix3 r b j)).trans ?_
  rw [broadcastTo_ab1_abc_apply]

/-- Entry `(r, k)` of the stored block. -/
theorem pay1_apply (r : Fin 512) (k : Fin 4096) :
    k1_pay1 (F := Ideal) (k1_pay3 (F := Ideal) X) (k1_pay5 (F := Ideal) X) (k1_pay6 (F := Ideal) X) (ix2 r k) = qdq X r k := by
  have hk : k = col (blockOf k) ⟨k.val % 16, Nat.mod_lt _ (by decide)⟩ := Fin.ext (by
    show k.val = k.val / 16 * 16 + k.val % 16
    omega)
  have h := store_at (k1_pay3 (F := Ideal) X) (k1_pay5 (F := Ideal) X) (k1_pay6 (F := Ideal) X) r (blockOf k) ⟨k.val % 16, Nat.mod_lt _ (by decide)⟩
  rw [pay5_apply, pay6_apply, pay3_apply, ← hk] at h
  exact h

end Cert.KernelIdeal.QdqVal1

end
-- ==== Proof.KIQdqArr.lean ====
/- The two quantize-dequantize regions' output arrays after their runs, over the extended reals: each is the
   specification's treated array of the region's input array. A grid point's output block, read at an entry,
   is the specification's entry of the input block, which depends on one row of the block only; the input
   block is the input array read at the point's 512 rows; the points' blocks tile the output array. -/
import proofs.«102121_j89773406421237_2_alg».proof.Proof.KIQdq
import proofs.«102121_j89773406421237_2_alg».proof.Proof.Spec
import proofs.«102121_j89773406421237_2_alg».proof.Proof.QdqPay0
import proofs.«102121_j89773406421237_2_alg».proof.Proof.QdqPay1
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The zero offsets, however spelt. -/
theorem off00 : (![0, 0] : Fin 2 → Nat) = fun _ => 0 := funext fun a => by fin_cases a <;> rfl

/-- The specification's entry `(r, k)` reads row `r` only: two arrays that agree along a row of each agree there. -/
theorem qdq_congr {R R' : ℕ} (X : (⟨2, ![R, 4096]⟩ : Shape).Idx → Ideal .f32) (X' : (⟨2, ![R', 4096]⟩ : Shape).Idx → Ideal .f32)
    (r : Fin R) (r' : Fin R') (h : ∀ k' : Fin 4096, X (ix2 r k') = X' (ix2 r' k')) (k : Fin 4096) :
    Cert.Spec.qdq X r k = Cert.Spec.qdq X' r' k := by
  have e : (fun k' => X (ix2 r k')) = (fun k' => X' (ix2 r' k')) := funext h
  unfold Cert.Spec.qdq
  rw [e, h k]

/-! # Region 0 -/

section Region0

variable (V : (c : Dev nD) → (b : Ref sig .tc) → Buf (Elt Ideal) ((c : Thread nD τ).loc b))

/-- What the body leaves in the output buffer is its one payload of the whole input block. -/
theorem out0_1_eq (x0 : Vec Ideal S512x4096 .f32) :
    out0_1 x0 = k0_pay1 (k0_pay3 x0) (k0_pay5 x0) (k0_pay6 x0) := by
  unfold out0_1
  rw [View.canon_unit_zero off00, View.ld_unit_zero off00]

/-- The printed index maps, decided over the grid: both windows' block at point `t` is block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem lt_N0 (t : Fin cfg0.N) : t.val < 16 := by
  have h : t.val < grid0.N := t.isLt
  rw [N_0] at h; exact h

/-- Entry `(r, k)` of the input block at point `t` is entry `(512 t + r, k)` of the input array. -/
theorem iblk0_apply (c : Dev nD) (t : Fin cfg0.N) (r : Fin 512) (k : Fin 4096) :
    iblk0 V c 0 t (ix2 r k) = V c main_arg0 (ix2 (⟨t.val * 512 + r.val, by have := lt_N0 t; omega⟩ : Fin 8192) k) := by
  obtain ⟨e0, e1, -, -⟩ := idx_facts0 t
  show V c main_arg0 (((cfg0.win 0).blk t).view.emb (ix2 r k)) = _
  refine congrArg (V c main_arg0) (funext fun a => Fin.ext ?_)
  match a with
  | ⟨0, _⟩ => show win0_0.index t (0 : Fin 2) * 512 + 1 * r.val = t.val * 512 + r.val; omega
  | ⟨1, _⟩ => show win0_0.index t (1 : Fin 2) * 4096 + 1 * k.val = k.val; omega

/-- Entry `(r, k)` of the output window's block at point `t` sits at `(512 t + r, k)` of the output array. -/
theorem emb0_1 (t : Fin cfg0.N) (r : Fin 512) (k : Fin 4096) :
    ((cfg0.win 1).blk t).view.emb (ix2 r k) = ix2 (⟨t.val * 512 + r.val, by have := lt_N0 t; omega⟩ : Fin 8192) k := by
  obtain ⟨-, -, e0, e1⟩ := idx_facts0 t
  refine funext fun a => Fin.ext ?_
  match a with
  | ⟨0, _⟩ => show win0_1.index t (0 : Fin 2) * 512 + 1 * r.val = t.val * 512 + r.val; omega
  | ⟨1, _⟩ => show win0_1.index t (1 : Fin 2) * 4096 + 1 * k.val = k.val; omega

/-- What point `t` writes back is block `t` of the specification's treated input array. -/
theorem flushed0_eq (c : Dev nD) (t : Fin cfg0.N) :
    (dat0 (F := Ideal) V c).flushed 1 t = ((cfg0.win 1).blk t).view.read (Elt Ideal) (Cert.Spec.qarr (R := 8192) (V c main_arg0)) := by
  show (cfg0.win 1).cut (grid0.coords t) ((dat0 V c).after 1 t) = _
  rw [after0_1, out0_1_eq]
  funext j
  obtain ⟨r, k, rfl⟩ : ∃ (r : Fin 512) (k : Fin 4096), j = ix2 r k := ⟨j 0, j 1, eq_ix2 j⟩
  show k0_pay1 (k0_pay3 (iblk0 V c 0 t)) (k0_pay5 (iblk0 V c 0 t)) (k0_pay6 (iblk0 V c 0 t)) (ix2 r k)
    = Cert.Spec.qarr (R := 8192) (V c main_arg0) (((cfg0.win 1).blk t).view.emb (ix2 r k))
  rw [emb0_1, Cert.Spec.qarr_apply, Cert.KernelIdeal.QdqVal0.pay1_apply]
  exact qdq_congr _ _ r _ (fun k' => iblk0_apply V c t r k') k

/-- An index of the output array is in point `t`'s block iff each coordinate is in the block's range on its axis. -/
theorem mem_blk0 (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Every index of the output array is in the block of the point its row falls in. -/
theorem cover0 (i : S8192x4096.Idx) :
    ∃ t : Fin cfg0.N, (cfg0.win 1).flush t = true ∧ i ∈ ((cfg0.win 1).blk t).view.set := by
  have hi0 : (i 0).val < 8192 := idx2_lt0 i
  have hi1 : (i 1).val < 4096 := idx2_lt1 i
  have hN : (i 0).val / 512 < grid0.N := by rw [N_0]; omega
  obtain ⟨-, -, e0, e1⟩ := idx_facts0 ⟨(i 0).val / 512, hN⟩
  have q0 : win0_1.index ⟨(i 0).val / 512, hN⟩ (0 : Fin 2) = (i 0).val / 512 := e0
  refine ⟨⟨(i 0).val / 512, hN⟩, flush0_1 _, ?_⟩
  rw [mem_blk0]
  intro a
  match a with
  | ⟨0, _⟩ => show win0_1.index ⟨(i 0).val / 512, hN⟩ (0 : Fin 2) * 512 ≤ (i 0).val ∧ (i 0).val < win0_1.index ⟨(i 0).val / 512, hN⟩ (0 : Fin 2) * 512 + 512; omega
  | ⟨1, _⟩ => show win0_1.index ⟨(i 0).val / 512, hN⟩ (1 : Fin 2) * 4096 ≤ (i 1).val ∧ (i 1).val < win0_1.index ⟨(i 0).val / 512, hN⟩ (1 : Fin 2) * 4096 + 4096; omega

/-- The output array after the region's run is the specification's treated input array. -/
theorem arr0_eq (c : Dev nD) :
    (dat0 (F := Ideal) V c).arrAt 1 cfg0.N = Cert.Spec.qarr (R := 8192) (V c main_arg0) :=
  (dat0 (F := Ideal) V c).arrAt_eq_of_cover 1 (Cert.Spec.qarr (R := 8192) (V c main_arg0))
    (fun t _ => flushed0_eq V c t) (cover0)

end Region0

/-! # Region 1 -/

section Region1

variable (V : (c : Dev nD) → (b : Ref sig .tc) → Buf (Elt Ideal) ((c : Thread nD τ).loc b))

/-- What the body leaves in the output buffer is its one payload of the whole input block. -/
theorem out1_1_eq (x0 : Vec Ideal S512x4096 .f32) :
    out1_1 x0 = k1_pay1 (k1_pay3 x0) (k1_pay5 x0) (k1_pay6 x0) := by
  unfold out1_1
  rw [View.canon_unit_zero off00, View.ld_unit_zero off00]

/-- The printed index maps, decided over the grid: both windows' block at point `t` is block row `t`, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

theorem lt_N1 (t : Fin cfg1.N) : t.val < 8 := by
  have h : t.val < grid1.N := t.isLt
  rw [N_1] at h; exact h

/-- Entry `(r, k)` of the input block at point `t` is entry `(512 t + r, k)` of the input array. -/
theorem iblk1_apply (c : Dev nD) (t : Fin cfg1.N) (r : Fin 512) (k : Fin 4096) :
    iblk1 V c 0 t (ix2 r k) = V c main_arg1 (ix2 (⟨t.val * 512 + r.val, by have := lt_N1 t; omega⟩ : Fin 4096) k) := by
  obtain ⟨e0, e1, -, -⟩ := idx_facts1 t
  show V c main_arg1 (((cfg1.win 0).blk t).view.emb (ix2 r k)) = _
  refine congrArg (V c main_arg1) (funext fun a => Fin.ext ?_)
  match a with
  | ⟨0, _⟩ => show win1_0.index t (0 : Fin 2) * 512 + 1 * r.val = t.val * 512 + r.val; omega
  | ⟨1, _⟩ => show win1_0.index t (1 : Fin 2) * 4096 + 1 * k.val = k.val; omega

/-- Entry `(r, k)` of the output window's block at point `t` sits at `(512 t + r, k)` of the output array. -/
theorem emb1_1 (t : Fin cfg1.N) (r : Fin 512) (k : Fin 4096) :
    ((cfg1.win 1).blk t).view.emb (ix2 r k) = ix2 (⟨t.val * 512 + r.val, by have := lt_N1 t; omega⟩ : Fin 4096) k := by
  obtain ⟨-, -, e0, e1⟩ := idx_facts1 t
  refine funext fun a => Fin.ext ?_
  match a with
  | ⟨0, _⟩ => show win1_1.index t (0 : Fin 2) * 512 + 1 * r.val = t.val * 512 + r.val; omega
  | ⟨1, _⟩ => show win1_1.index t (1 : Fin 2) * 4096 + 1 * k.val = k.val; omega

/-- What point `t` writes back is block `t` of the specification's treated input array. -/
theorem flushed1_eq (c : Dev nD) (t : Fin cfg1.N) :
    (dat1 (F := Ideal) V c).flushed 1 t = ((cfg1.win 1).blk t).view.read (Elt Ideal) (Cert.Spec.qarr (R := 4096) (V c main_arg1)) := by
  show (cfg1.win 1).cut (grid1.coords t) ((dat1 V c).after 1 t) = _
  rw [after1_1, out1_1_eq]
  funext j
  obtain ⟨r, k, rfl⟩ : ∃ (r : Fin 512) (k : Fin 4096), j = ix2 r k := ⟨j 0, j 1, eq_ix2 j⟩
  show k1_pay1 (k1_pay3 (iblk1 V c 0 t)) (k1_pay5 (iblk1 V c 0 t)) (k1_pay6 (iblk1 V c 0 t)) (ix2 r k)
    = Cert.Spec.qarr (R := 4096) (V c main_arg1) (((cfg1.win 1).blk t).view.emb (ix2 r k))
  rw [emb1_1, Cert.Spec.qarr_apply, Cert.KernelIdeal.QdqVal1.pay1_apply]
  exact qdq_congr _ _ r _ (fun k' => iblk1_apply V c t r k') k

/-- An index of the output array is in point `t`'s block iff each coordinate is in the block's range on its axis. -/
theorem mem_blk1 (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

/-- Every index of the output array is in the block of the point its row falls in. -/
theorem cover1 (i : S4096x4096.Idx) :
    ∃ t : Fin cfg1.N, (cfg1.win 1).flush t = true ∧ i ∈ ((cfg1.win 1).blk t).view.set := by
  have hi0 : (i 0).val < 4096 := idx2_lt0 i
  have hi1 : (i 1).val < 4096 := idx2_lt1 i
  have hN : (i 0).val / 512 < grid1.N := by rw [N_1]; omega
  obtain ⟨-, -, e0, e1⟩ := idx_facts1 ⟨(i 0).val / 512, hN⟩
  have q0 : win1_1.index ⟨(i 0).val / 512, hN⟩ (0 : Fin 2) = (i 0).val / 512 := e0
  refine ⟨⟨(i 0).val / 512, hN⟩, flush1_1 _, ?_⟩
  rw [mem_blk1]
  intro a
  match a with
  | ⟨0, _⟩ => show win1_1.index ⟨(i 0).val / 512, hN⟩ (0 : Fin 2) * 512 ≤ (i 0).val ∧ (i 0).val < win1_1.index ⟨(i 0).val / 512, hN⟩ (0 : Fin 2) * 512 + 512; omega
  | ⟨1, _⟩ => show win1_1.index ⟨(i 0).val / 512, hN⟩ (1 : Fin 2) * 4096 ≤ (i 1).val ∧ (i 1).val < win1_1.index ⟨(i 0).val / 512, hN⟩ (1 : Fin 2) * 4096 + 4096; omega

/-- The output array after the region's run is the specification's treated input array. -/
theorem arr1_eq (c : Dev nD) :
    (dat1 (F := Ideal) V c).arrAt 1 cfg1.N = Cert.Spec.qarr (R := 4096) (V c main_arg1) :=
  (dat1 (F := Ideal) V c).arrAt_eq_of_cover 1 (Cert.Spec.qarr (R := 4096) (V c main_arg1))
    (fun t _ => flushed1_eq V c t) (cover1)

end Region1

end Cert.KernelIdeal.Hand

end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.MatPay.lean ====
/-
  The three values the tiled product stores, read at one entry over the extended reals.

  The accumulator block is first set to zero; at every step along the shared axis it receives its old value plus the
  product of a [2048, 2048] block of the left array with the transpose of a [1024, 2048] block of the right one, whose
  entry (r, s) is the sum over k of the entries (r, k) and (s, k); at the last step the block written out is the
  accumulator plus the bias of the column. Two steps of 2048 cover the shared axis of 4096.
-/
import proofs.«102121_j89773406421237_2_alg».proof.Proof.Gen.KernelIdeal.Skeleton
import proofs.«102121_j89773406421237_2_alg».proof.Proof.LibDotT
import proofs.«102121_j89773406421237_2_alg».proof.Proof.LibBlocks
import Idealize.ShloMosaic.Lib.ValueLayout
import Idealize.ShloMosaic.PureOps.Ideal.Laws

noncomputable section

open scoped BigOperators

namespace Cert.KernelIdeal.MatVal

open Cert.KernelIdeal Cert.KernelIdeal.Gen Idealize.ShloMosaic Idealize.ShloMosaic.ValueIdx

/-- The block the accumulator starts from is zero at every entry. -/
theorem pay1_apply (r : Fin 2048) (s : Fin 1024) : k2_pay1 (F := Ideal) (ix2 r s) = 0 := by
  show shapeCast S2048x1024 (broadcast S2048x1024 (Scalar.ofBits (F := Ideal) .f32 0x00000000#32))
    shapeCasts_S2048x1024_S2048x1024 (ix2 r s) = 0
  rw [shapeCast_self]
  exact Ideal.ofBits_zero_f32

/-- One step: the old accumulator plus the sum over the block's 2048 shared positions. -/
theorem pay2_apply (v3 : FVec Ideal S2048x1024 .f32) (v4 : FVec Ideal S2048x2048 .bf16) (v6 : FVec Ideal S1024x2048 .bf16)
    (r : Fin 2048) (s : Fin 1024) :
    k2_pay2 v3 v4 v6 (ix2 r s) = v3 (ix2 r s) + ∑ k : Fin 2048, v4 (ix2 r k) * v6 (ix2 s k) := by
  show shapeCast S2048x1024
      (addf v3 (matmul dot_S2048x2048_S1024x2048_S2048x1024_1_1_0_0_n_n none
        (shapeCast S2048x2048 v4 shapeCasts_S2048x2048_S2048x2048) (shapeCast S1024x2048 v6 shapeCasts_S1024x2048_S1024x2048)
        (constant S2048x1024 .f32 0x00000000#32)))
      shapeCasts_S2048x1024_S2048x1024 (ix2 r s) = _
  rw [shapeCast_self, shapeCast_self, shapeCast_self, addf_apply]
  refine congrArg (v3 (ix2 r s) + ·) ?_
  exact Cert.LibDotT.matmulT_zero_apply dot_S2048x2048_S1024x2048_S2048x1024_1_1_0_0_n_n rfl rfl rfl rfl
    (fun _ _ => rfl) (fun _ _ => rfl) none v4 v6 r s

/-- The block written out: the accumulator plus the column's bias. -/
theorem pay3_apply (v16 : FVec Ideal S2048x1024 .f32) (v17 : FVec Ideal S1024 .f32) (r : Fin 2048) (s : Fin 1024) :
    k2_pay3 v16 v17 (ix2 r s) = v16 (ix2 r s) + v17 (ix1 s) := by
  show addf v16 (broadcastTo S2048x1024 (shapeCast S1x1024 v17 shapeCasts_S1024_S1x1024) broadcasts_S1x1024_S2048x1024)
    (ix2 r s) = _
  rw [addf_apply, broadcastTo_1b_ab_apply, shapeCast_a_1a_apply]

/-- Two stretches of 2048, accumulated from zero, are the whole sum over 4096. -/
theorem acc_two (f : Fin 4096 → EReal) :
    (0 + ∑ k : Fin 2048, f ⟨k.val, by omega⟩) + ∑ k : Fin 2048, f ⟨2048 + k.val, by omega⟩ = ∑ k : Fin 4096, f k := by
  have h : ∑ k : Fin 4096, f k = ∑ a : Fin 2, ∑ b : Fin 2048, f (Cert.LibBlocks.entry a b) :=
    Cert.LibBlocks.sum_entries (A := 2) (B := 2048) f
  rw [h, Fin.sum_univ_two, zero_add]
  refine congrArg₂ (· + ·) (Finset.sum_congr rfl fun k _ => congrArg f (Fin.ext ?_))
    (Finset.sum_congr rfl fun k _ => congrArg f (Fin.ext ?_))
  · show k.val = 0 * 2048 + k.val
    omega
  · show 2048 + k.val = 1 * 2048 + k.val
    omega

end Cert.KernelIdeal.MatVal

end
-- ==== Proof.KIMatArr.lean ====
/-
  What the third region leaves in its output array, over the extended reals.

  The grid is 4 x 4 x 2: point t works on the block (i, j) = (t / 8, t / 2 % 4) of the [8192, 4096] result and on the
  half k = t % 2 of the shared axis of 4096. The even point of a pair starts the accumulator at zero plus the first
  half's products, the odd point adds the second half's and writes the accumulator plus the column's bias back. The two
  halves make the whole sum, so every block written back is that block of the product of the two arrays the region
  reads with the second one transposed, plus the bias; the sixteen blocks tile the array.
-/
import proofs.«102121_j89773406421237_2_alg».proof.Proof.KIMatmul
import proofs.«102121_j89773406421237_2_alg».proof.Proof.MatPay
import proofs.«102121_j89773406421237_2_alg».proof.Proof.SpecMM

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The block indices of the four windows at point `t`, decided over the 32 points. -/
theorem idx_facts2 : ∀ t : Fin cfg2.N,
    win2_0.index t (0 : Fin 2) = t.val / 8 ∧ win2_0.index t (1 : Fin 2) = t.val % 2
    ∧ win2_1.index t (0 : Fin 2) = t.val / 2 % 4 ∧ win2_1.index t (1 : Fin 2) = t.val % 2
    ∧ win2_2.index t (0 : Fin 1) = t.val / 2 % 4
    ∧ win2_3.index t (0 : Fin 2) = t.val / 8 ∧ win2_3.index t (1 : Fin 2) = t.val / 2 % 4 :=
  (by decide +kernel : ∀ t : Fin grid2.N, _)

section Region
-- the TensorCore's buffer contents when the region is entered
variable (V : (c : Dev nD) → (b : Ref sig .tc) → Buf (Elt Ideal) ((c : Thread nD τ).loc b))

/-! ## The input blocks, read where they lie in their arrays -/

/-- Entry (r, kk) of the left block at point `t` is entry (2048·(t / 8) + r, 2048·(t % 2) + kk) of the left array. -/
theorem iblk2_0_apply (c : Dev nD) (t : Fin cfg2.N) (r kk : Fin 2048) (p : Fin 8192) (k : Fin 4096)
    (hp : p.val = 2048 * (t.val / 8) + r.val) (hk : k.val = 2048 * (t.val % 2) + kk.val) :
    (iblk2 V c 0 t : FVec Ideal S2048x2048 .bf16) (ix2 r kk) = (V c main_v0 : S8192x4096.Idx → Ideal .bf16) (ix2 p k) := by
  obtain ⟨e0, e1, -⟩ := idx_facts2 t
  unfold iblk2
  rw [View.read_apply]
  show (V c main_v0 : S8192x4096.Idx → Ideal .bf16) _ = _
  refine congrArg (V c main_v0 : S8192x4096.Idx → Ideal .bf16) (funext fun a => Fin.ext ?_)
  match a with
  | ⟨0, _⟩ => show win2_0.index t (0 : Fin 2) * 2048 + 1 * r.val = p.val; rw [e0, hp]; omega
  | ⟨1, _⟩ => show win2_0.index t (1 : Fin 2) * 2048 + 1 * kk.val = k.val; rw [e1, hk]; omega

/-- Entry (s, kk) of the right block at point `t` is entry (1024·(t / 2 % 4) + s, 2048·(t % 2) + kk) of the right array. -/
theorem iblk2_1_apply (c : Dev nD) (t : Fin cfg2.N) (s : Fin 1024) (kk : Fin 2048) (q k : Fin 4096)
    (hq : q.val = 1024 * (t.val / 2 % 4) + s.val) (hk : k.val = 2048 * (t.val % 2) + kk.val) :
    (iblk2 V c 1 t : FVec Ideal S1024x2048 .bf16) (ix2 s kk) = (V c main_v1 : S4096x4096.Idx → Ideal .bf16) (ix2 q k) := by
  obtain ⟨-, -, e2, e3, -⟩ := idx_facts2 t
  unfold iblk2
  rw [View.read_apply]
  show (V c main_v1 : S4096x4096.Idx → Ideal .bf16) _ = _
  refine congrArg (V c main_v1 : S4096x4096.Idx → Ideal .bf16) (funext fun a => Fin.ext ?_)
  match a with
  | ⟨0, _⟩ => show win2_1.index t (0 : Fin 2) * 1024 + 1 * s.val = q.val; rw [e2, hq]; omega
  | ⟨1, _⟩ => show win2_1.index t (1 : Fin 2) * 2048 + 1 * kk.val = k.val; rw [e3, hk]; omega

/-- Entry s of the bias block at point `t` is entry 1024·(t / 2 % 4) + s of the bias. -/
theorem iblk2_2_apply (c : Dev nD) (t : Fin cfg2.N) (s : Fin 1024) (q : Fin 4096)
    (hq : q.val = 1024 * (t.val / 2 % 4) + s.val) :
    (iblk2 V c 2 t : FVec Ideal S1024 .f32) (ix1 s) = (V c main_arg2 : S4096.Idx → Ideal .f32) (ix1 q) := by
  obtain ⟨-, -, -, -, e4, -⟩ := idx_facts2 t
  unfold iblk2
  rw [View.read_apply]
  show (V c main_arg2 : S4096.Idx → Ideal .f32) _ = _
  refine congrArg (V c main_arg2 : S4096.Idx → Ideal .f32) (funext fun a => Fin.ext ?_)
  match a with
  | ⟨0, _⟩ => show win2_2.index t (0 : Fin 1) * 1024 + 1 * s.val = q.val; rw [e4, hq]; omega

end Region

/-! ## A pair of points over variables: the two halves of the shared axis make the whole sum -/

/-- The block a pair of points writes back, over the blocks it read: if the left blocks are the two halves of row `p` of
    `A`, the right blocks the two halves of row `q` of `B` and the bias block holds `bias` at `q`, then entry (r, s) of
    the accumulated block plus bias is entry (p, q) of `A · Bᵀ + bias`. -/
theorem pair_entry (A : S8192x4096.Idx → Ideal .bf16) (B : S4096x4096.Idx → Ideal .bf16) (bias : S4096.Idx → Ideal .f32)
    (l0 l1 : FVec Ideal S2048x2048 .bf16) (r0 r1 : FVec Ideal S1024x2048 .bf16) (b1 : FVec Ideal S1024 .f32)
    (r : Fin 2048) (s : Fin 1024) (p : Fin 8192) (q : Fin 4096)
    (hl0 : ∀ kk : Fin 2048, l0 (ix2 r kk) = A (ix2 p ⟨kk.val, by omega⟩))
    (hl1 : ∀ kk : Fin 2048, l1 (ix2 r kk) = A (ix2 p ⟨2048 + kk.val, by omega⟩))
    (hr0 : ∀ kk : Fin 2048, r0 (ix2 s kk) = B (ix2 q ⟨kk.val, by omega⟩))
    (hr1 : ∀ kk : Fin 2048, r1 (ix2 s kk) = B (ix2 q ⟨2048 + kk.val, by omega⟩))
    (hb : b1 (ix1 s) = bias (ix1 q)) :
    k2_pay3 (F := Ideal) (k2_pay2 (F := Ideal) (k2_pay2 (F := Ideal) (k2_pay1 (F := Ideal)) l0 r0) l1 r1) b1 (ix2 r s) = Cert.Spec.mmEntry A B bias p q := by
  refine (Cert.KernelIdeal.MatVal.pay3_apply (k2_pay2 (F := Ideal) (k2_pay2 (F := Ideal) (k2_pay1 (F := Ideal)) l0 r0) l1 r1) b1 r s).trans ?_
  rw [Cert.KernelIdeal.MatVal.pay2_apply (k2_pay2 (F := Ideal) (k2_pay1 (F := Ideal)) l0 r0) l1 r1 r s,
    Cert.KernelIdeal.MatVal.pay2_apply (k2_pay1 (F := Ideal)) l0 r0 r s, Cert.KernelIdeal.MatVal.pay1_apply r s, hb]
  unfold Cert.Spec.mmEntry
  refine congrArg (· + bias (ix1 q)) ?_
  refine Eq.trans ?_ (Cert.KernelIdeal.MatVal.acc_two fun k => A (ix2 p k) * B (ix2 q k))
  refine congrArg₂ (· + ·) (congrArg (0 + ·) (Finset.sum_congr rfl fun kk _ => ?_)) (Finset.sum_congr rfl fun kk _ => ?_)
  · rw [hl0 kk, hr0 kk]
  · rw [hl1 kk, hr1 kk]

section Region2
variable (V : (c : Dev nD) → (b : Ref sig .tc) → Buf (Elt Ideal) ((c : Thread nD τ).loc b))

/-! ## The block written back at an odd point -/

/-- At an odd point the output window's staging buffer holds: zero, plus the products of the blocks of the point before,
    plus the products of this point's blocks, plus the bias block. -/
theorem out_pair (c : Dev nD) (t : Fin cfg2.N) (h : t.val % 2 = 1) (hlt : t.val - 1 < cfg2.N) :
    (outsAt2 V c t.val t.isLt).1
      = k2_pay3 (F := Ideal) (k2_pay2 (F := Ideal) (k2_pay2 (F := Ideal) (k2_pay1 (F := Ideal)) (iblk2 V c 0 ⟨t.val - 1, hlt⟩) (iblk2 V c 1 ⟨t.val - 1, hlt⟩))
          (iblk2 V c 0 t) (iblk2 V c 1 t)) (iblk2 V c 2 t) := by
  have h0 : (t.val - 1) % 2 = 0 := by omega
  have hacc : (outsAt2 V c (t.val - 1) (Nat.lt_of_le_of_lt (Nat.sub_le _ _) t.isLt)).2
      = k2_pay2 (F := Ideal) (k2_pay1 (F := Ideal)) (iblk2 V c 0 ⟨t.val - 1, hlt⟩) (iblk2 V c 1 ⟨t.val - 1, hlt⟩) :=
    outsAt2_even V c ⟨t.val - 1, hlt⟩ h0
  rw [outsAt2_odd V c t h, hacc]

/-- So the block written back at an odd point `t` holds, at (r, s), the entry (2048·(t / 8) + r, 1024·(t / 2 % 4) + s) of
    the product of the two arrays with the second transposed, plus the bias. -/
theorem out_odd_entry (c : Dev nD) (t : Fin cfg2.N) (h : t.val % 2 = 1) (r : Fin 2048) (s : Fin 1024)
    (p : Fin 8192) (q : Fin 4096) (hp : p.val = 2048 * (t.val / 8) + r.val) (hq : q.val = 1024 * (t.val / 2 % 4) + s.val) :
    (outsAt2 V c t.val t.isLt).1 (ix2 r s)
      = Cert.Spec.mmEntry (V c main_v0) (V c main_v1) (V c main_arg2) p q := by
  have hlt : t.val - 1 < cfg2.N := Nat.lt_of_le_of_lt (Nat.sub_le _ _) t.isLt
  rw [out_pair V c t h hlt]
  exact pair_entry (V c main_v0) (V c main_v1) (V c main_arg2)
    (iblk2 V c 0 ⟨t.val - 1, hlt⟩) (iblk2 V c 0 t) (iblk2 V c 1 ⟨t.val - 1, hlt⟩) (iblk2 V c 1 t) (iblk2 V c 2 t) r s p q
    (fun kk => iblk2_0_apply V c ⟨t.val - 1, hlt⟩ r kk p ⟨kk.val, by omega⟩
      (by show p.val = 2048 * ((t.val - 1) / 8) + r.val; omega) (by show kk.val = 2048 * ((t.val - 1) % 2) + kk.val; omega))
    (fun kk => iblk2_0_apply V c t r kk p ⟨2048 + kk.val, by omega⟩ hp
      (by show 2048 + kk.val = 2048 * (t.val % 2) + kk.val; omega))
    (fun kk => iblk2_1_apply V c ⟨t.val - 1, hlt⟩ s kk q ⟨kk.val, by omega⟩
      (by show q.val = 1024 * ((t.val - 1) / 2 % 4) + s.val; omega) (by show kk.val = 2048 * ((t.val - 1) % 2) + kk.val; omega))
    (fun kk => iblk2_1_apply V c t s kk q ⟨2048 + kk.val, by omega⟩ hq
      (by show 2048 + kk.val = 2048 * (t.val % 2) + kk.val; omega))
    (iblk2_2_apply V c t s q hq)

/-! ## The blocks written back, and the array -/

/-- What an odd point writes back is its block of the product plus the bias. -/
theorem flushed2_3_eq (c : Dev nD) (t : Fin cfg2.N) (hf : (cfg2.win 3).flush t = true) :
    (dat2 (F := Ideal) V c).flushed 3 t
      = ((cfg2.win 3).blk t).view.read (Elt Ideal) (Cert.Spec.mm (V c main_v0) (V c main_v1) (V c main_arg2)) := by
  have h1 : t.val % 2 = 1 := (flush2_3 t).mp hf
  obtain ⟨-, -, -, -, -, e5, e6⟩ := idx_facts2 t
  show (cfg2.win 3).cut (grid2.coords t) ((dat2 (F := Ideal) V c).after 3 t) = _
  rw [after2_3]
  funext j
  obtain ⟨r, s, rfl⟩ : ∃ (r : Fin 2048) (s : Fin 1024), j = ix2 r s := ⟨j 0, j 1, eq_ix2 (n0 := 2048) (n1 := 1024) j⟩
  rw [View.read_apply]
  show (outsAt2 V c t.val t.isLt).1 (ix2 r s)
    = Cert.Spec.mmEntry (V c main_v0) (V c main_v1) (V c main_arg2)
        ((((cfg2.win 3).blk t).view.emb (ix2 r s)) (0 : Fin 2)) ((((cfg2.win 3).blk t).view.emb (ix2 r s)) (1 : Fin 2))
  refine out_odd_entry V c t h1 r s _ _ ?_ ?_
  · show win2_3.index t (0 : Fin 2) * 2048 + 1 * r.val = 2048 * (t.val / 8) + r.val
    rw [e5]; omega
  · show win2_3.index t (1 : Fin 2) * 1024 + 1 * s.val = 1024 * (t.val / 2 % 4) + s.val
    rw [e6]; omega

/-- Every entry of the [8192, 4096] array lies in the block of an odd point: entry (p, q) in that of the pair
    (p / 2048, q / 1024). -/
theorem cover2_3 (i : S8192x4096.Idx) :
    ∃ t : Fin cfg2.N, (cfg2.win 3).flush t = true ∧ i ∈ ((cfg2.win 3).blk t).view.set := by
  have hN : cfg2.N = 32 := N_2
  have hi0 : (i 0).val < 8192 := (i 0).isLt
  have hi1 : (i 1).val < 4096 := (i 1).isLt
  have hlt : ((i 0).val / 2048 * 4 + (i 1).val / 1024) * 2 + 1 < cfg2.N := by omega
  obtain ⟨t, ht⟩ : ∃ t : Fin cfg2.N, t.val = ((i 0).val / 2048 * 4 + (i 1).val / 1024) * 2 + 1 := ⟨⟨_, hlt⟩, rfl⟩
  obtain ⟨-, -, -, -, -, e5, e6⟩ := idx_facts2 t
  refine ⟨t, (flush2_3 t).mpr (by omega), ?_⟩
  show i ∈ ((View.whole main_v2).slice (win2_3.rect t)).set
  rw [View.set_slice_whole, Rect.mem_set_unit]
  intro a
  match a with
  | ⟨0, _⟩ =>
    show win2_3.index t (0 : Fin 2) * 2048 ≤ (i 0).val ∧ (i 0).val < win2_3.index t (0 : Fin 2) * 2048 + 2048
    rw [e5]; omega
  | ⟨1, _⟩ =>
    show win2_3.index t (1 : Fin 2) * 1024 ≤ (i 1).val ∧ (i 1).val < win2_3.index t (1 : Fin 2) * 1024 + 1024
    rw [e6]; omega

/-- The region's output array after the last point is the product of the two arrays it reads, the second transposed,
    plus the bias along the columns. -/
theorem arr2_eq (c : Dev nD) :
    (dat2 (F := Ideal) V c).arrAt 3 cfg2.N = Cert.Spec.mm (V c main_v0) (V c main_v1) (V c main_arg2) :=
  (dat2 (F := Ideal) V c).arrAt_eq_of_cover 3 (Cert.Spec.mm (V c main_v0) (V c main_v1) (V c main_arg2))
    (fun t hf => flushed2_3_eq V c t hf) cover2_3

end Region2

end Cert.KernelIdeal.Hand

end
-- ==== Proof.KernelValue.lean ====
/- The value of the program's result over the extended reals: the specification's array of the three arguments.
   The three regions' output arrays are each a closed function of what the region finds in its input arrays; chained
   through the contents found at each region's entry, the last one is the product step applied to the two treated
   arguments and the bias. -/
import proofs.«102121_j89773406421237_2_alg».proof.Proof.KIRun
import proofs.«102121_j89773406421237_2_alg».proof.Proof.SpecMM
import proofs.«102121_j89773406421237_2_alg».proof.Proof.KIQdqArr
import proofs.«102121_j89773406421237_2_alg».proof.Proof.KIMatArr

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result array after the run, over the extended reals, is the specification's array of the three arguments.
    The third region leaves the product step of what it finds in its three input arrays; it finds the first two
    at what the first two regions left — the treated activations and the treated weights, each the treatment of
    an argument as launched — and the bias as launched. -/
theorem kernel_result (c : Dev nD) :
    (dat2 (F := Ideal) (V2 m ρ) c).arrAt 3 cfg2.N
      = Cert.Spec.G (m ((c.tc : Thread nD τ).loc main_arg0)) (m ((c.tc : Thread nD τ).loc main_arg1)) (m ((c.tc : Thread nD τ).loc main_arg2)) := by
  have h0 : V0 m ρ c main_arg0 = m ((c.tc : Thread nD τ).loc main_arg0) := rfl
  rw [arr2_eq (V2 m ρ) c, V2_main_v0 m ρ c, V2_main_v1 m ρ c, V2_main_arg2 m ρ c, arr0_eq (V0 m ρ) c, arr1_eq (V1 m ρ) c,
    V1_main_arg1 m ρ c, h0]
  exact (Cert.Spec.G_eq_mm _ _ _).symm

/-- The program runs to the end, faults nowhere, leaves its three arguments as launched and its result at the
    specification's array of them. -/
theorem run_G : θ_run (defs (F := Ideal)) (onTc (τ := τ) (main (F := Ideal))) ⟨m, fun _ => 0, ρ⟩ (fun r => ∀ c : Dev nD,
      r.2.mem ((c.tc : Thread nD τ).loc main_v2)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c => ⟨(h c).1.trans (kernel_result m ρ c), (h c).2⟩) (run_main m ρ)

end Cert.KernelIdeal.Hand

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.RefQdq.lean ====
/-
  One array of the reference, entry by entry.

  The reference cuts each row of 4096 into 256 blocks of 16 by a reshape to [R, 256, 16], takes the largest magnitude of
  every block, turns it into the block's scale, divides, moves the quotient to the grid, multiplies by the scale and reshapes
  back. Entry (r, b, j) of the reshaped array is entry (r, 16·b + j) of the row, so what is stored at (r, k) of the result
  is the specification's treatment of the entry (r, k) with the scale of the block k / 16.
-/
import proofs.«102121_j89773406421237_2_alg».proof.Proof.Gen.ReferenceIdeal.Read
import proofs.«102121_j89773406421237_2_alg».proof.Proof.Spec
import proofs.«102121_j89773406421237_2_alg».proof.Proof.LibRows

noncomputable section

namespace Cert.ReferenceIdeal.RefValue

open Cert.ReferenceIdeal Cert.ReferenceIdeal.Gen Cert.ReferenceIdeal.Read Idealize.ShloMosaic Idealize.ShloMosaic.ValueIdx

/-! ### The sign -/

/-- The host's sign of an extended real is the two comparisons by which the specification spells it. -/
theorem sign_eq_sgn (y : Ideal .f32) : FloatOps.hostUnary .sign y = Cert.Spec.sgn y :=
  (Ideal.jnp_sign_eq_sign_f32 y).symm

/-! ### The activations: operations 0 to 35 -/

/-- The scale of a block from the block's largest magnitude. -/
theorem x_scale_at (x0 : (⟨S8192x4096, .f32⟩ : BufTy).Contents (Elt Ideal)) (i : S8192x256x1.Idx) :
    val_main_v9 (F := Ideal) x0 i = Cert.Spec.scale (val_main_v2 (F := Ideal) x0 (idx_main_v3 i)) := by
  rw [val_main_v9_apply, val_main_v5_apply, val_main_v7_apply, val_main_v3_apply, val_main_v4_apply, val_main_cst_0_apply,
    val_main_v6_apply, val_main_cst_1_apply, val_main_v8_apply, val_main_cst_2_apply]
  rfl

/-- The magnitude of a quotient clipped to [0, 6]. -/
theorem x_clip_at (x0 : (⟨S8192x4096, .f32⟩ : BufTy).Contents (Elt Ideal)) (i : S8192x256x16.Idx) :
    val_main_v14 (F := Ideal) x0 i = Cert.Spec.clip6 (val_main_v11 (F := Ideal) x0 i) := by
  rw [val_main_v14_apply, val_main_call1_v4_apply, val_main_call1_v3_apply, val_main_cst_4_apply, val_main_call1_v2_apply,
    val_main_call1_v1_apply, val_main_call1_v0_apply, val_main_cst_3_apply, val_main_v13_apply]
  rfl

/-- The clipped magnitude moved to the grid. -/
theorem x_grid_at (x0 : (⟨S8192x4096, .f32⟩ : BufTy).Contents (Elt Ideal)) (i : S8192x256x16.Idx) :
    val_main_v31 (F := Ideal) x0 i = Cert.Spec.grid (val_main_v14 (F := Ideal) x0 i) := by
  rw [val_main_v31_apply, val_main_v16_apply, val_main_v15_apply, val_main_cst_5_apply, val_main_v21_apply, val_main_v19_apply,
    val_main_v18_apply, val_main_v17_apply, val_main_cst_6_apply, val_main_v20_apply, val_main_cst_7_apply, val_main_v30_apply,
    val_main_v23_apply, val_main_v22_apply, val_main_cst_8_apply, val_main_v24_apply, val_main_v29_apply, val_main_v27_apply,
    val_main_v26_apply, val_main_v25_apply, val_main_cst_9_apply, val_main_v28_apply, val_main_cst_10_apply]
  rfl

/-! ### Indices: entry (r, b, j) of the [R, 256, 16] reshape is entry (r, 16·b + j) of the row -/

/-- The reshape to blocks reads the row entry `16·b + j`. -/
theorem x_idx_v0 (r : Fin 8192) (b : Fin 256) (j : Fin 16) : idx_main_v0 (ix3 r b j) = ix2 r (Cert.Spec.col b j) := by
  have hr := r.isLt; have hb := b.isLt; have hj := j.isLt
  funext a
  refine Fin.ext ?_
  match a with
  | ⟨0, _⟩ => show ((r.val * 256 + b.val) * 16 + j.val) / 4096 = r.val; omega
  | ⟨1, _⟩ => show ((r.val * 256 + b.val) * 16 + j.val) % 4096 = b.val * 16 + j.val; omega

/-- A block's scale, spread over the block's sixteen entries, is read at the block. -/
theorem x_idx_v10 (r : Fin 8192) (b : Fin 256) (j : Fin 16) : idx_main_v3 (idx_main_v10 (ix3 r b j)) = ix2 r b := by
  funext a
  refine Fin.ext ?_
  match a with
  | ⟨0, _⟩ => rfl
  | ⟨1, _⟩ => rfl

theorem x_idx_v33 (r : Fin 8192) (b : Fin 256) (j : Fin 16) : idx_main_v3 (idx_main_v33 (ix3 r b j)) = ix2 r b := by
  funext a
  refine Fin.ext ?_
  match a with
  | ⟨0, _⟩ => rfl
  | ⟨1, _⟩ => rfl

/-- The reshape back reads entry `k` of a row at block `k / 16`, place `k % 16`. -/
theorem x_idx_v35 (r : Fin 8192) (k : Fin 4096) :
    idx_main_v35 (ix2 r k) = ix3 r (Cert.Spec.blockOf k) (⟨k.val % 16, Nat.mod_lt _ (by decide)⟩ : Fin 16) := by
  have hr := r.isLt; have hk := k.isLt
  funext a
  refine Fin.ext ?_
  match a with
  | ⟨0, _⟩ => show (r.val * 4096 + k.val) / 4096 = r.val; omega
  | ⟨1, _⟩ => show (r.val * 4096 + k.val) / 16 % 256 = k.val / 16; omega
  | ⟨2, _⟩ => show (r.val * 4096 + k.val) % 16 = k.val % 16; omega

/-- Place `k % 16` of block `k / 16` is `k`. -/
theorem col_blockOf (k : Fin 4096) :
    Cert.Spec.col (Cert.Spec.blockOf k) (⟨k.val % 16, Nat.mod_lt _ (by decide)⟩ : Fin 16) = k := by
  refine Fin.ext ?_
  show k.val / 16 * 16 + k.val % 16 = k.val
  omega

/-! ### The largest magnitude of a block -/

theorem x_amax_at (x0 : (⟨S8192x4096, .f32⟩ : BufTy).Contents (Elt Ideal)) (r : Fin 8192) (b : Fin 256) :
    val_main_v2 (F := Ideal) x0 (ix2 r b) = Cert.Spec.amax (fun k' => x0 (ix2 r k')) b := by
  unfold val_main_v2
  rw [hostLastMax_apply (val_main_v1 (F := Ideal) x0) (val_main_cst (F := Ideal)) reducesTo_S8192x256x16_S8192x256_d2
    (by decide) h_S_ r b]
  have e : (fun s : Fin 16 => val_main_v1 (F := Ideal) x0 (ix3 r b s))
      = fun j : Fin 16 => FloatOps.absf (F := Ideal) (φ := .f32) (x0 (ix2 r (Cert.Spec.col b j))) :=
    funext fun s => by rw [val_main_v1_apply, val_main_v0_apply, x_idx_v0, Ideal.hostAbsf_def]
  rw [e]
  rfl

/-! ### One entry, and the array -/

/-- Entry `j` of block `b` of row `r`, divided by the block's scale, moved to the grid and multiplied back. -/
theorem x_entry_at (x0 : (⟨S8192x4096, .f32⟩ : BufTy).Contents (Elt Ideal)) (r : Fin 8192) (b : Fin 256) (j : Fin 16) :
    val_main_v34 (F := Ideal) x0 (ix3 r b j)
      = Cert.Spec.qd (x0 (ix2 r (Cert.Spec.col b j))) (Cert.Spec.scale (Cert.Spec.amax (fun k' => x0 (ix2 r k')) b)) := by
  have hs10 : val_main_v10 (F := Ideal) x0 (ix3 r b j)
      = Cert.Spec.scale (Cert.Spec.amax (fun k' => x0 (ix2 r k')) b) := by
    rw [val_main_v10_apply, x_scale_at, x_idx_v10, x_amax_at]
  have hs33 : val_main_v33 (F := Ideal) x0 (ix3 r b j)
      = Cert.Spec.scale (Cert.Spec.amax (fun k' => x0 (ix2 r k')) b) := by
    rw [val_main_v33_apply, x_scale_at, x_idx_v33, x_amax_at]
  have hq : val_main_v11 (F := Ideal) x0 (ix3 r b j)
      = FloatOps.divf (F := Ideal) (φ := .f32) (x0 (ix2 r (Cert.Spec.col b j))) (Cert.Spec.scale (Cert.Spec.amax (fun k' => x0 (ix2 r k')) b)) := by
    rw [val_main_v11_apply, val_main_v0_apply, x_idx_v0, hs10]
    rfl
  rw [val_main_v34_apply, val_main_v32_apply, val_main_v12_apply, x_grid_at, x_clip_at, hs33, hq, sign_eq_sgn]
  rfl

/-- The treated activations: the reference's array after the reshape back is the specification's. -/
theorem val_v35_eq (x0 : (⟨S8192x4096, .f32⟩ : BufTy).Contents (Elt Ideal)) :
    val_main_v35 (F := Ideal) x0 = Cert.Spec.qarr x0 := by
  funext i
  obtain ⟨r, k, rfl⟩ : ∃ (r : Fin 8192) (k : Fin 4096), i = ix2 r k := ⟨i 0, i 1, eq_ix2 i⟩
  rw [val_main_v35_apply, x_idx_v35, x_entry_at, Cert.Spec.qarr_apply]
  unfold Cert.Spec.qdq
  rw [col_blockOf]

end Cert.ReferenceIdeal.RefValue

end
-- ==== Proof.RefQdqW.lean ====
/-
  The weights of the reference, entry by entry: the treatment of the activations (blocks of 16 along the rows, scale,
  grid, back) applied to the [4096, 4096] array, operations 36 to 71 of the program.
-/
import proofs.«102121_j89773406421237_2_alg».proof.Proof.RefQdq

noncomputable section

namespace Cert.ReferenceIdeal.RefValue

open Cert.ReferenceIdeal Cert.ReferenceIdeal.Gen Cert.ReferenceIdeal.Read Idealize.ShloMosaic Idealize.ShloMosaic.ValueIdx

/-! ### The weights: operations 36 to 71, the same treatment of a [4096, 4096] array -/

/-- The scale of a block from the block's largest magnitude. -/
theorem w_scale_at (x1 : (⟨S4096x4096, .f32⟩ : BufTy).Contents (Elt Ideal)) (i : S4096x256x1.Idx) :
    val_main_v45 (F := Ideal) x1 i = Cert.Spec.scale (val_main_v38 (F := Ideal) x1 (idx_main_v39 i)) := by
  rw [val_main_v45_apply, val_main_v41_apply, val_main_v43_apply, val_main_v39_apply, val_main_v40_apply, val_main_cst_12_apply,
    val_main_v42_apply, val_main_cst_13_apply, val_main_v44_apply, val_main_cst_14_apply]
  rfl

/-- The magnitude of a quotient clipped to [0, 6]. -/
theorem w_clip_at (x1 : (⟨S4096x4096, .f32⟩ : BufTy).Contents (Elt Ideal)) (i : S4096x256x16.Idx) :
    val_main_v50 (F := Ideal) x1 i = Cert.Spec.clip6 (val_main_v47 (F := Ideal) x1 i) := by
  rw [val_main_v50_apply, val_main_call8_v4_apply, val_main_call8_v3_apply, val_main_cst_16_apply, val_main_call8_v2_apply,
    val_main_call8_v1_apply, val_main_call8_v0_apply, val_main_cst_15_apply, val_main_v49_apply]
  rfl

/-- The clipped magnitude moved to the grid. -/
theorem w_grid_at (x1 : (⟨S4096x4096, .f32⟩ : BufTy).Contents (Elt Ideal)) (i : S4096x256x16.Idx) :
    val_main_v67 (F := Ideal) x1 i = Cert.Spec.grid (val_main_v50 (F := Ideal) x1 i) := by
  rw [val_main_v67_apply, val_main_v52_apply, val_main_v51_apply, val_main_cst_17_apply, val_main_v57_apply, val_main_v55_apply,
    val_main_v54_apply, val_main_v53_apply, val_main_cst_18_apply, val_main_v56_apply, val_main_cst_19_apply, val_main_v66_apply,
    val_main_v59_apply, val_main_v58_apply, val_main_cst_20_apply, val_main_v60_apply, val_main_v65_apply, val_main_v63_apply,
    val_main_v62_apply, val_main_v61_apply, val_main_cst_21_apply, val_main_v64_apply, val_main_cst_22_apply]
  rfl

/-! ### Indices, as for the activations -/

/-- The reshape to blocks reads the row entry `16·b + j`. -/
theorem w_idx_v36 (r : Fin 4096) (b : Fin 256) (j : Fin 16) : idx_main_v36 (ix3 r b j) = ix2 r (Cert.Spec.col b j) := by
  have hr := r.isLt; have hb := b.isLt; have hj := j.isLt
  funext a
  refine Fin.ext ?_
  match a with
  | ⟨0, _⟩ => show ((r.val * 256 + b.val) * 16 + j.val) / 4096 = r.val; omega
  | ⟨1, _⟩ => show ((r.val * 256 + b.val) * 16 + j.val) % 4096 = b.val * 16 + j.val; omega

/-- A block's scale, spread over the block's sixteen entries, is read at the block. -/
theorem w_idx_v46 (r : Fin 4096) (b : Fin 256) (j : Fin 16) : idx_main_v39 (idx_main_v46 (ix3 r b j)) = ix2 r b := by
  funext a
  refine Fin.ext ?_
  match a with
  | ⟨0, _⟩ => rfl
  | ⟨1, _⟩ => rfl

theorem w_idx_v69 (r : Fin 4096) (b : Fin 256) (j : Fin 16) : idx_main_v39 (idx_main_v69 (ix3 r b j)) = ix2 r b := by
  funext a
  refine Fin.ext ?_
  match a with
  | ⟨0, _⟩ => rfl
  | ⟨1, _⟩ => rfl

/-- The reshape back reads entry `k` of a row at block `k / 16`, place `k % 16`. -/
theorem w_idx_v71 (r : Fin 4096) (k : Fin 4096) :
    idx_main_v71 (ix2 r k) = ix3 r (Cert.Spec.blockOf k) (⟨k.val % 16, Nat.mod_lt _ (by decide)⟩ : Fin 16) := by
  have hr := r.isLt; have hk := k.isLt
  funext a
  refine Fin.ext ?_
  match a with
  | ⟨0, _⟩ => show (r.val * 4096 + k.val) / 4096 = r.val; omega
  | ⟨1, _⟩ => show (r.val * 4096 + k.val) / 16 % 256 = k.val / 16; omega
  | ⟨2, _⟩ => show (r.val * 4096 + k.val) % 16 = k.val % 16; omega

/-! ### The largest magnitude of a block (weights) -/

theorem w_amax_at (x1 : (⟨S4096x4096, .f32⟩ : BufTy).Contents (Elt Ideal)) (r : Fin 4096) (b : Fin 256) :
    val_main_v38 (F := Ideal) x1 (ix2 r b) = Cert.Spec.amax (fun k' => x1 (ix2 r k')) b := by
  unfold val_main_v38
  rw [hostLastMax_apply (val_main_v37 (F := Ideal) x1) (val_main_cst_11 (F := Ideal)) reducesTo_S4096x256x16_S4096x256_d2
    (by decide) h_S_ r b]
  have e : (fun s : Fin 16 => val_main_v37 (F := Ideal) x1 (ix3 r b s))
      = fun j : Fin 16 => FloatOps.absf (F := Ideal) (φ := .f32) (x1 (ix2 r (Cert.Spec.col b j))) :=
    funext fun s => by rw [val_main_v37_apply, val_main_v36_apply, w_idx_v36, Ideal.hostAbsf_def]
  rw [e]
  rfl

/-! ### One entry, and the array (weights) -/

/-- Entry `j` of block `b` of row `r`, divided by the block's scale, moved to the grid and multiplied back. -/
theorem w_entry_at (x1 : (⟨S4096x4096, .f32⟩ : BufTy).Contents (Elt Ideal)) (r : Fin 4096) (b : Fin 256) (j : Fin 16) :
    val_main_v70 (F := Ideal) x1 (ix3 r b j)
      = Cert.Spec.qd (x1 (ix2 r (Cert.Spec.col b j))) (Cert.Spec.scale (Cert.Spec.amax (fun k' => x1 (ix2 r k')) b)) := by
  have hs46 : val_main_v46 (F := Ideal) x1 (ix3 r b j)
      = Cert.Spec.scale (Cert.Spec.amax (fun k' => x1 (ix2 r k')) b) := by
    rw [val_main_v46_apply, w_scale_at, w_idx_v46, w_amax_at]
  have hs69 : val_main_v69 (F := Ideal) x1 (ix3 r b j)
      = Cert.Spec.scale (Cert.Spec.amax (fun k' => x1 (ix2 r k')) b) := by
    rw [val_main_v69_apply, w_scale_at, w_idx_v69, w_amax_at]
  have hq : val_main_v47 (F := Ideal) x1 (ix3 r b j)
      = FloatOps.divf (F := Ideal) (φ := .f32) (x1 (ix2 r (Cert.Spec.col b j))) (Cert.Spec.scale (Cert.Spec.amax (fun k' => x1 (ix2 r k')) b)) := by
    rw [val_main_v47_apply, val_main_v36_apply, w_idx_v36, hs46]
    rfl
  rw [val_main_v70_apply, val_main_v68_apply, val_main_v48_apply, w_grid_at, w_clip_at, hs69, hq, sign_eq_sgn]
  rfl

/-- The treated weights: the reference's array after the reshape back is the specification's. -/
theorem val_v71_eq (x1 : (⟨S4096x4096, .f32⟩ : BufTy).Contents (Elt Ideal)) :
    val_main_v71 (F := Ideal) x1 = Cert.Spec.qarr x1 := by
  funext i
  obtain ⟨r, k, rfl⟩ : ∃ (r : Fin 4096) (k : Fin 4096), i = ix2 r k := ⟨i 0, i 1, eq_ix2 i⟩
  rw [val_main_v71_apply, w_idx_v71, w_entry_at, Cert.Spec.qarr_apply]
  unfold Cert.Spec.qdq
  rw [col_blockOf]

end Cert.ReferenceIdeal.RefValue

end
-- ==== Proof.RefValue.lean ====
/-
  The reference's result is the specification's.

  The reference multiplies the treated activations with the transpose of the treated weights — entry (p, q) of the
  product is the sum over k of the entries (p, k) and (q, k) — and adds the bias along the columns: entry (p, q) gets
  the bias at q. With both treated arrays identified entry by entry, this is the specification's array.
-/
import proofs.«102121_j89773406421237_2_alg».proof.Proof.RefQdqW

noncomputable section

open scoped BigOperators

namespace Cert.ReferenceIdeal.RefValue

open Cert.ReferenceIdeal Cert.ReferenceIdeal.Gen Cert.ReferenceIdeal.Read Idealize.ShloMosaic Idealize.ShloMosaic.ValueIdx

/-- The left factor of the product at (p, q) and k is the entry (p, k). -/
theorem lidx_v72 (p : Fin 8192) (q : Fin 4096) (k : Fin 4096) : lidx_main_v72 (ix2 p q) k = ix2 p k := by
  funext a
  refine Fin.ext ?_
  match a with
  | ⟨0, _⟩ => rfl
  | ⟨1, _⟩ => rfl

/-- The right factor of the product at (p, q) and k is the entry (q, k): the second array enters transposed. -/
theorem ridx_v72 (p : Fin 8192) (q : Fin 4096) (k : Fin 4096) : ridx_main_v72 (ix2 p q) k = ix2 q k := by
  funext a
  refine Fin.ext ?_
  match a with
  | ⟨0, _⟩ => rfl
  | ⟨1, _⟩ => rfl

/-- The bias, spread over the rows, is read at the column. -/
theorem idx_v74 (p : Fin 8192) (q : Fin 4096) : idx_main_v73 (idx_main_v74 (ix2 p q)) = ix1 q := by
  funext a
  refine Fin.ext ?_
  match a with
  | ⟨0, _⟩ => rfl

/-- The reference's result array is the specification's array of the three arguments. -/
theorem val_eq_G (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v75 (F := Ideal) x0 x1 x2 = Cert.Spec.G x0 x1 x2 := by
  funext i
  obtain ⟨p, q, rfl⟩ : ∃ (p : Fin 8192) (q : Fin 4096), i = ix2 p q := ⟨i 0, i 1, eq_ix2 i⟩
  rw [val_main_v75_apply, val_main_v72_apply, val_main_v74_apply, val_main_v73_apply, val_v35_eq, val_v71_eq, idx_v74,
    Cert.Spec.G_apply]
  unfold Cert.Spec.entry
  simp only [lidx_v72, ridx_v72]
  rfl

end Cert.ReferenceIdeal.RefValue

end
-- ==== Proof.Preserves.lean ====
/- The kernel and its idealization differ at two sites, one in each of the two quantize-dequantize calls: the
   window that builds 1.0 carrying an element's sign bit (mask the sign bit, or it into 1.0's pattern, read the word
   as a float) is printed in the idealization as a select between -1.0 and 1.0 on whether the element is below
   zero.  Each site is the sign-bit rule's statement at the site's shape and format. -/
import proofs.«102121_j89773406421237_2_alg».proof.Defs
import Idealize.ShloMosaic.PureOps.IdealRules

noncomputable section

namespace Cert.Proof.Parts

open Idealize.ShloMosaic

/-- Both rewrites are instances of the rule's own statement. -/
theorem preserves : Cert.preserves_Kernel_KernelIdeal :=
  ⟨IdealRules.sign_bit.statement _ _, IdealRules.sign_bit.statement _ _⟩

end Cert.Proof.Parts

end
-- ==== Proof.lean ====
/- Both programs compute one array of their three arguments x, w and bias: qdq(x) · qdq(w)ᵀ + bias, where qdq cuts
   every row into blocks of 16 entries, divides a block by its scale (a sixth of its largest magnitude), moves each
   quotient to the nearest point of the grid ±{0, .5, 1, 1.5, 2, 3, 4, 6} and multiplies by the scale again.

   The frames: each program runs to the end and leaves its arguments as launched.  The kernel is three regions, two
   that treat x and w block by block and a tiled product; the reference is one straight sequence of array operations.

   The two sign-bit windows the idealization rewrote are instances of the rewrite rule's statement.

   Over the extended reals both results are the specification's array.  The reference's is so entry by entry: its
   reshapes to blocks and back keep every entry in its place, and its product contracts the last axis of both treated
   arrays.  The kernel's treated arrays are the same treatment taken 512 rows at a time; its product takes the sum
   over the contraction in two halves of 2048 from zero, which is the whole sum over 4096 by associativity of
   addition, and adds the bias once, after the second half.  No finiteness of the inputs is used. -/
import proofs.«102121_j89773406421237_2_alg».proof.Defs
import proofs.«102121_j89773406421237_2_alg».proof.Proof.Gen.Kernel
import proofs.«102121_j89773406421237_2_alg».proof.Proof.Gen.KernelIdeal
import proofs.«102121_j89773406421237_2_alg».proof.Proof.Gen.ReferenceIdeal
import proofs.«102121_j89773406421237_2_alg».proof.Proof.Gen.ReferenceIdeal.Run
import proofs.«102121_j89773406421237_2_alg».proof.Proof.Gen.ReferenceIdeal.Read
import proofs.«102121_j89773406421237_2_alg».proof.Proof.Gen.Pre_finite_inputs
import proofs.«102121_j89773406421237_2_alg».proof.Proof.KRun
import proofs.«102121_j89773406421237_2_alg».proof.Proof.KernelValue
import proofs.«102121_j89773406421237_2_alg».proof.Proof.RefValue
import proofs.«102121_j89773406421237_2_alg».proof.Proof.Preserves
import Idealize.ShloMosaic.Adequacy
import Idealize.ShloMosaic.Init

noncomputable section

namespace Cert.Proof

open Idealize.ShloMosaic Idealize.ShloMosaic.TcCoe Idealize.SL.Sem

/-- The kernel as printed runs to the end and leaves its three arguments as launched. -/
theorem frame_Kernel : Cert.frame_Kernel := fun m ρ _ => Cert.Kernel.Hand.frame (F := Bits) m ρ

/-- So does its idealization. -/
theorem frame_KernelIdeal : Cert.frame_KernelIdeal := fun m ρ _ => Cert.KernelIdeal.Hand.frame (F := Ideal) m ρ

/-- So does the reference: its run, the result forgotten. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the three arguments, both programs end with the
    specification's array of the arguments as their result: the kernel's run states it; the reference's result is
    its composed term of its own arguments, which is the specification's array of them, and they are the kernel's. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_G m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, Cert.ReferenceIdeal.RefValue.val_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, Cert.Proof.Parts.preserves, algebraic⟩

end Cert.Proof

end
